-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S128x64 : Shape := ⟨2, ![128, 64]⟩
abbrev S1x128 : Shape := ⟨2, ![1, 128]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 59
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000x1, .f32⟩
  | .hbm, ⟨14, _⟩ => ⟨S_, .f32⟩
  | .hbm, ⟨15, _⟩ => ⟨S50000x1, .f32⟩
  | .hbm, ⟨16, _⟩ => ⟨S600000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S128x128, .f32⟩
  | .hbm, ⟨38, _⟩ => ⟨S128x128, .f32⟩
  | .hbm, ⟨39, _⟩ => ⟨S128x64, .f32⟩
  | .hbm, ⟨40, _⟩ => ⟨S1x128, .f32⟩
  | .hbm, ⟨41, _⟩ => ⟨S50000x128, .f32⟩
  | .hbm, ⟨42, _⟩ => ⟨S50000x64, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x64, .f32⟩
  | .hbm, ⟨52, _⟩ => ⟨S_, .f32⟩
  | .hbm, ⟨53, _⟩ => ⟨S50000x64, .f32⟩
  | .hbm, ⟨54, _⟩ => ⟨S600000x1, .i32⟩
  | .hbm, ⟨55, _⟩ => ⟨S50000x64, .f32⟩
  | .hbm, ⟨56, _⟩ => ⟨S128x64, .f32⟩
  | .hbm, ⟨57, _⟩ => ⟨S1x64, .f32⟩
  | .hbm, ⟨58, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x128 : S_.BroadcastsInDim S50000x128 (![] : Fin 0 → Fin S50000x128.rank)
  transposes_S128x128_S128x128_1_0 : S128x128.Transposes [1, 0] S128x128
  transposes_S64x128_S128x64_1_0 : S64x128.Transposes [1, 0] S128x64
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000x1, .f32⟩
  | .hbm, ⟨27, _⟩ => ⟨S_, .f32⟩
  | .hbm, ⟨28, _⟩ => ⟨S50000x1, .f32⟩
  | .hbm, ⟨29, _⟩ => ⟨S600000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S_, .f32⟩
  | .hbm, ⟨61, _⟩ => ⟨S600000x1, .f32⟩
  | .hbm, ⟨62, _⟩ => ⟨S_, .f32⟩
  | .hbm, ⟨63, _⟩ => ⟨S50000x1, .f32⟩
  | .hbm, ⟨64, _⟩ => ⟨S600000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S128x64, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRunA.lean ====
/-
  The whole program's run with its result named: from any memory, every weakly fair execution of the program ends with
  the result array at what the last boundary of the run holds there (the second kernel's write-backs folded over the
  contents after the second stretch of host operations), and the eight arguments as launched.
-/
import proofs.«150183_j2972117368898_2_alg».proof.Proof.Gen.KernelIdeal.Frame

set_option maxRecDepth 16384

noncomputable section

namespace Cert.KernelIdeal.KVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array read off the last boundary's contents. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KVal

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibRowOps.lean ====
/-
  Whole rows gathered from, and added into, a matrix — `jnp`'s `x[idx]` of a matrix `x : [N, C]` at a list of `E` row
  numbers, and `segment_sum` of an `[E, C]` matrix of rows into `N` segments — read at an index given by coordinates.

  * The gather (offset axis 1, collapsed axis 0, the start index one signed word per row of an `[E, 1]` array, slices
    `1 × C`): entry `(e, c)` of the result is `x` at row `idx[e, 0]`, read signed and clamped into `[0, N − 1]`,
    column `c`.
  * The accumulating scatter at the ideal instance (window axis 1, inserted axis 0, the row number one signed word per
    update row, not clamped): entry `(n, c)` of the result is the operand's entry plus the sum, over the update rows `e`
    whose word IS `n`, of the update's entry `(e, c)`. A row whose word is negative or at least `N` is dropped: it equals
    no `n`.

  Both for every `N`, `E`, `C`: a printed record with these lists is the record below (its well-formedness field is a
  proposition), so the lemmas apply to it after `show … = _ from rfl`.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

variable {N E C w : Nat}

/-- An axis is kept exactly when it is not in the list. -/
theorem mem_kept {s : Shape} (axes : List (Fin s.rank)) (a : Fin s.rank) : a ∈ s.kept axes ↔ a ∉ axes := by
  simp [Shape.kept, List.mem_filter, List.mem_finRange]

/-- Axis 1 is not in the list `[0]`. -/
theorem one_not_mem {s : Shape} (h : s.rank = 2) : (⟨1, by omega⟩ : Fin s.rank) ∉ [(⟨0, by omega⟩ : Fin s.rank)] :=
  fun hm => absurd (congrArg Fin.val (List.mem_singleton.mp hm)) Nat.one_ne_zero

/-! ## Rows gathered -/

/-- The dimension numbers of a gather of whole rows. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a gathered row comes from: the start word read signed, clamped into `[0, N − 1]`. -/
def srcRow (hN : 0 < N) (idx : IVec ⟨2, ![E, 1]⟩ w) (e : Fin E) : Fin N :=
  ⟨min (idx (ix2 e (0 : Fin 1))).toInt.toNat (N - 1), by omega⟩

/-- THE GATHER READ AT `(e, c)`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, C]⟩ : Shape).rank) ∈ (rowGatherDims N E C wf).startIndexMap from List.mem_singleton.mpr rfl)]
    have hsi : (rowGatherDims N E C wf).siIdx (ix2 e c) ⟨List.idxOf (0 : Fin (⟨2, ![N, C]⟩ : Shape).rank) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show ¬ (1 : Fin (⟨2, ![N, C]⟩ : Shape).rank) ∈ (rowGatherDims N E C wf).startIndexMap from one_not_mem rfl)]
    simp only [Nat.zero_add, Nat.add_zero]
    rfl

/-! ## Rows added in -/

/-- The dimension numbers of a scatter of whole rows. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable (wf : ScatterDims.WF ⟨2, ![N, C]⟩ ⟨2, ![E, 1]⟩ ⟨2, ![E, C]⟩ [1] [0] [0] 1) (idx : IVec ⟨2, ![E, 1]⟩ w)

theorem start_row (e : Fin E) (c' : Fin C) :
    (rowScatterDims N E C wf).start (ix2 e c') idx 0 = (idx (ix2 e (0 : Fin 1))).toInt := by
  unfold ScatterDims.start
  rw [dif_pos (show (0 : Fin (⟨2, ![N, C]⟩ : Shape).rank) ∈ (rowScatterDims N E C wf).scatterDimsToOperandDims from List.mem_singleton.mpr rfl)]
  have hsi : (rowScatterDims N E C wf).siIdx (ix2 e c') ⟨List.idxOf (0 : Fin (⟨2, ![N, C]⟩ : Shape).rank) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (e : Fin E) (c' : Fin C) : (rowScatterDims N E C wf).start (ix2 e c') idx 1 = 0 := by
  unfold ScatterDims.start
  rw [dif_neg (show ¬ (1 : Fin (⟨2, ![N, C]⟩ : Shape).rank) ∈ (rowScatterDims N E C wf).scatterDimsToOperandDims from one_not_mem rfl)]

theorem window_row (e : Fin E) (c' : Fin C) : (rowScatterDims N E C wf).window (ix2 e c') 0 = 0 := by
  unfold ScatterDims.window
  rw [dif_neg (show ¬ (0 : Fin (⟨2, ![N, C]⟩ : Shape).rank) ∈ (rowScatterDims N E C wf).sKept from fun h => (mem_kept _ _).mp h (List.mem_singleton.mpr rfl))]

theorem window_col (e : Fin E) (c' : Fin C) : (rowScatterDims N E C wf).window (ix2 e c') 1 = c'.val := by
  unfold ScatterDims.window
  rw [dif_pos (show (1 : Fin (⟨2, ![N, C]⟩ : Shape).rank) ∈ (rowScatterDims N E C wf).sKept from (mem_kept _ _).mpr (one_not_mem rfl))]
  rfl

/-- Update entry `(e, c')` lands on `(n, c)` exactly when it is in column `c` and row `e`'s word is `n`. -/
theorem resultIdx?_rows (e : Fin E) (c' : Fin C) (n : Fin N) (c : Fin C) :
    (rowScatterDims N E C wf).resultIdx? (ix2 e c') idx = some (ix2 n c)
      ↔ c' = c ∧ (idx (ix2 e (0 : Fin 1))).toInt = (n.val : Int) := by
  have hn : n.val < N := n.isLt
  have hc : c.val < C := c.isLt
  have hc' : c'.val < C := c'.isLt
  unfold ScatterDims.resultIdx?
  split
  · rename_i h
    rw [Option.some.injEq]
    have h0 := h 0
    have h1 := h 1
    rw [start_row, window_row] at h0
    rw [start_col, window_col] at h1
    constructor
    · intro hf
      have e0 : ((rowScatterDims N E C wf).start (ix2 e c') idx 0 + ((rowScatterDims N E C wf).window (ix2 e c') 0 : Int)).toNat = n.val :=
        congrArg (fun f : (⟨2, ![N, C]⟩ : Shape).Idx => (f 0).val) hf
      have e1 : ((rowScatterDims N E C wf).start (ix2 e c') idx 1 + ((rowScatterDims N E C wf).window (ix2 e c') 1 : Int)).toNat = c.val :=
        congrArg (fun f : (⟨2, ![N, C]⟩ : Shape).Idx => (f 1).val) hf
      rw [start_row, window_row] at e0
      rw [start_col, window_col] at e1
      exact ⟨Fin.ext (by omega), by omega⟩
    · rintro ⟨rfl, hw⟩
      funext a
      refine Fin.ext ?_
      match a with
      | ⟨0, _⟩ =>
        show ((rowScatterDims N E C wf).start (ix2 e c') idx 0 + ((rowScatterDims N E C wf).window (ix2 e c') 0 : Int)).toNat = n.val
        rw [start_row, window_row]; omega
      | ⟨1, _⟩ =>
        show ((rowScatterDims N E C wf).start (ix2 e c') idx 1 + ((rowScatterDims N E C wf).window (ix2 e c') 1 : Int)).toNat = c'.val
        rw [start_col, window_col]; omega
  · rename_i h
    constructor
    · intro hf; exact absurd hf (by simp)
    · rintro ⟨rfl, hw⟩
      exfalso
      apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [start_row, window_row]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [start_col, window_col]; omega

/-- THE ACCUMULATING SCATTER READ AT `(n, c)`, at the ideal instance. -/
theorem scatterAdd_rows_apply (x : (⟨2, ![N, C]⟩ : Shape).Idx → EReal) (upd : (⟨2, ![E, C]⟩ : Shape).Idx → EReal)
    (n : Fin N) (c : Fin C) :
    Host.scatterAdd (F := Ideal) (φ := .f32) (rowScatterDims N E C wf) x idx upd (ix2 n c)
      = x (ix2 n c) + ∑ e : Fin E, if (idx (ix2 e (0 : Fin 1))).toInt = (n.val : Int) then upd (ix2 e c) else 0 := by
  show x (ix2 n c) + ∑ j ∈ Finset.univ.filter (fun j => (rowScatterDims N E C wf).resultIdx? j idx = some (ix2 n c)), upd j = _
  congr 1
  rw [Finset.sum_filter, sum_idx2]
  refine Finset.sum_congr rfl fun e _ => ?_
  simp only [resultIdx?_rows]
  by_cases hw : (idx (ix2 e (0 : Fin 1))).toInt = (n.val : Int)
  · simp only [hw, and_true, if_true]
    rw [Finset.sum_ite_eq' Finset.univ c (fun c' => upd (ix2 e c'))]
    simp
  · simp only [hw, and_false, if_false, Finset.sum_const_zero]

end Scatter

end Idealize.ShloMosaic.RowOps

end
-- ==== Proof.LibRealCoe.lean ====
/-
  Extended reals that are real numbers, at the ideal float operations: the coercion `ℝ → EReal` pushed through a finite
  sum, a maximum, a running maximum started at -∞ over a nonempty family, the exponential and the quotient; and the bit
  pattern of -∞. For value proofs that show every stage of a computation on finite inputs to be a coerced real and then
  argue over ℝ.
-/
import Idealize.ShloMosaic.PureOps.Ideal
import Idealize.ShloMosaic.PureOps.Ideal.Laws

noncomputable section

namespace RealCoe

open Idealize.ShloMosaic

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The bit pattern of -∞. -/
theorem ofBits_neg_inf : Ideal.ofBits .f32 0xFF800000#32 = (⊥ : EReal) := by
  simp [Ideal.ofBits, Ideal.ieee]

/-- The maximum of two reals. -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A running maximum started at -∞ over a nonempty family of reals is a real. -/
theorem fold_max_real {ι : Type*} (s : Finset ι) (hs : s.Nonempty) (g : ι → ℝ) :
    ∃ r : ℝ, s.fold max (⊥ : EReal) (fun i => ((g i : ℝ) : EReal)) = (r : EReal) := by
  classical
  induction s using Finset.induction_on with
  | empty => exact absurd hs (by simp)
  | insert a s ha ih =>
    rw [Finset.fold_insert ha]
    rcases s.eq_empty_or_nonempty with rfl | hne
    · exact ⟨g a, by simp⟩
    · obtain ⟨r, hr⟩ := ih hne
      exact ⟨max (g a) r, by rw [hr, coe_max]⟩

/-- The exponential of a real. -/
theorem exp_coe (r : ℝ) : Ideal.exp ((r : ℝ) : EReal) = ((Real.exp r : ℝ) : EReal) := rfl

/-- The exponential of -∞. -/
theorem exp_bot : Ideal.exp (⊥ : EReal) = 0 := rfl

/-- The quotient of two reals, the divisor not zero. -/
theorem div_coe_coe (x y : ℝ) (hy : y ≠ 0) : Ideal.div (x : EReal) (y : EReal) = ((x / y : ℝ) : EReal) := by
  rw [Ideal.div_coe hy, ← EReal.coe_mul, mul_one_div]

end RealCoe

end
-- ==== Proof.Spec.lean ====
/-
  Two layers of mean aggregation over a graph, written two ways, and the law that joins them.

  A graph on 50000 nodes has 600000 edges; edge `e` goes from node `row e` (a signed word, clamped into range) to the
  node whose number is the word `I e` (an edge whose word names no node is dropped). For a function `f` of a node,
  `agg f n` is the sum of `f (row e)` over the edges `e` that end in `n`. `D n` is the (clamped) number of edges ending
  in `n`: all that is used of it is that it is a nonzero real.

  The first way (`outK`) multiplies by the reciprocal `1 / D n` and, in the second layer, aggregates the hidden state
  ALREADY multiplied by the second layer's left weight:
      hK n k   = max (Σ_j (agg x_j n · (1/D n)) · w1l k j  +  Σ_j x n j · w1r k j  +  b1 k) 0
      outK n c = agg (r ↦ Σ_k hK r k · w2l c k) n · (1/D n)  +  Σ_k hK n k · w2r c k  +  b2 c.
  The second way (`outR`) divides by `D n` and multiplies by the left weight after aggregating:
      hR n k   = max (Σ_j (agg x_j n / D n) · w1l k j  +  b1 k  +  Σ_j x n j · w1r k j) 0
      outR n c = Σ_k (agg (r ↦ hR r k) n / D n) · w2l c k  +  b2 c  +  Σ_k hR n k · w2r c k.
  A quotient by a nonzero real is the product with its reciprocal on every extended real, and addition is commutative, so
  `hK = hR` with no finiteness. The second layer needs the aggregation and the weight to commute,
      (Σ_e Σ_k h (row e) k · w c k) · s = Σ_k ((Σ_e h (row e) k) · s) · w c k,
  which is distributivity: it holds because on finite inputs every `h r k` and every weight is a real number.
-/
import Idealize.ShloMosaic.PureOps.Ideal
import Idealize.ShloMosaic.PureOps.Ideal.Laws
import Idealize.ShloMosaic.Lib.ValueIdx
import Idealize.ShloMosaic.Lib.IdealHost
import proofs.«150183_j2972117368898_2_alg».proof.Proof.LibRowOps
import proofs.«150183_j2972117368898_2_alg».proof.Proof.LibRealCoe

noncomputable section

open scoped BigOperators

namespace Sage

open Idealize.ShloMosaic Idealize.ShloMosaic.ValueIdx Idealize.ShloMosaic.RowOps

/-! ## Extended reals that are real numbers -/

/-- The extended real `y` is a real number. -/
def IsReal (y : EReal) : Prop := ∃ r : ℝ, y = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.max {a b : EReal} (ha : IsReal a) (hb : IsReal b) : IsReal (max a b) := by
  obtain ⟨r, rfl⟩ := ha; obtain ⟨s, rfl⟩ := hb; exact ⟨_, RealCoe.coe_max r s⟩
theorem IsReal.ite {p : Prop} [Decidable p] {a b : EReal} (ha : IsReal a) (hb : IsReal b) : IsReal (if p then a else b) := by
  split_ifs <;> assumption
theorem IsReal.sum {ι : Type} (s : Finset ι) (f : ι → EReal) (h : ∀ i, IsReal (f i)) : IsReal (∑ i ∈ s, f i) := by
  choose g hg using h
  exact ⟨∑ i ∈ s, g i, by rw [← RealCoe.coe_sum]; exact Finset.sum_congr rfl fun i _ => hg i⟩

/-- The two words the programs splat: zero and one. -/
def zero' : EReal := Ideal.ofBits .f32 0x00000000#32
def one' : EReal := Ideal.ofBits .f32 0x3F800000#32
theorem zero'_eq : zero' = 0 := Ideal.ofBits_zero_f32
theorem one'_eq : one' = 1 := by unfold one'; simp [Ideal.ofBits, Ideal.ieee, -EReal.coe_mul]; norm_num

/-! ## The commuting of an aggregation with a weight, over the reals -/

theorem ite_coe (p : Prop) [Decidable p] (u : ℝ) : (if p then ((u : ℝ) : EReal) else 0) = ((if p then u else 0 : ℝ) : EReal) := by
  split_ifs <;> simp

/-- Summing the weighted rows that pass a test and then scaling is scaling each column's sum and then weighting. -/
theorem agg_weight {ι κ : Type} [Fintype ι] [Fintype κ] (p : ι → Prop) [DecidablePred p] (a : ι → κ → ℝ) (w : κ → ℝ) (s : ℝ) :
    ((0 : EReal) + ∑ i, if p i then (∑ k, ((a i k : ℝ) : EReal) * ((w k : ℝ) : EReal)) else 0) * ((s : ℝ) : EReal)
      = ∑ k, (((0 : EReal) + ∑ i, if p i then ((a i k : ℝ) : EReal) else 0) * ((s : ℝ) : EReal)) * ((w k : ℝ) : EReal) := by
  simp only [← EReal.coe_mul, RealCoe.coe_sum, ite_coe, zero_add]
  rw [EReal.coe_eq_coe_iff]
  calc (∑ i, if p i then ∑ k, a i k * w k else 0) * s
      = ∑ i, (if p i then ∑ k, a i k * w k else 0) * s := Finset.sum_mul _ _ _
    _ = ∑ i, ∑ k, (if p i then a i k else 0) * s * w k := by
        refine Finset.sum_congr rfl fun i _ => ?_
        by_cases hp : p i
        · rw [if_pos hp, Finset.sum_mul]
          refine Finset.sum_congr rfl fun k _ => ?_
          rw [if_pos hp]; ring
        · rw [if_neg hp, zero_mul]
          exact (Finset.sum_eq_zero fun k _ => by rw [if_neg hp, zero_mul, zero_mul]).symm
    _ = ∑ k, ∑ i, (if p i then a i k else 0) * s * w k := Finset.sum_comm
    _ = ∑ k, (∑ i, if p i then a i k else 0) * s * w k := by
        refine Finset.sum_congr rfl fun k _ => ?_
        rw [Finset.sum_mul, Finset.sum_mul]

/-! ## The two programs' formulas -/

section Formulas

variable (x : (⟨2, ![50000, 128]⟩ : Shape).Idx → EReal) (I J : IVec ⟨2, ![600000, 1]⟩ 32)
  (D : (⟨2, ![50000, 1]⟩ : Shape).Idx → EReal)
  (w1l : (⟨2, ![128, 128]⟩ : Shape).Idx → EReal) (b1 : (⟨1, ![128]⟩ : Shape).Idx → EReal)
  (w1r : (⟨2, ![128, 128]⟩ : Shape).Idx → EReal)
  (w2l : (⟨2, ![64, 128]⟩ : Shape).Idx → EReal) (b2 : (⟨1, ![64]⟩ : Shape).Idx → EReal)
  (w2r : (⟨2, ![64, 128]⟩ : Shape).Idx → EReal)

/-- The node edge `e` starts from. -/
def row (e : Fin 600000) : Fin 50000 := srcRow (N := 50000) (by decide) J e

/-- The sum of `f` at the start nodes of the edges that end in `n`, from the zero word. -/
def agg (f : Fin 50000 → EReal) (n : Fin 50000) : EReal :=
  zero' + ∑ e : Fin 600000, if (I (ix2 e (0 : Fin 1))).toInt = (n.val : Int) then f (row J e) else 0

/-- The reciprocal of the clamped degree, as the first program computes it. -/
def inv (n : Fin 50000) : EReal := Ideal.div one' (D (ix2 n (0 : Fin 1)))

/-- The hidden state, the first way. -/
def hK (n : Fin 50000) (k : Fin 128) : EReal :=
  max ((∑ j : Fin 128, (agg I J (fun r => x (ix2 r j)) n * inv D n) * w1l (ix2 k j))
      + (∑ j : Fin 128, x (ix2 n j) * w1r (ix2 k j)) + b1 (ix1 k)) zero'

/-- The hidden state times the second layer's left weight. -/
def hW (r : Fin 50000) (c : Fin 64) : EReal := ∑ k : Fin 128, hK x I J D w1l b1 w1r r k * w2l (ix2 c k)

/-- The result, the first way. -/
def outK (n : Fin 50000) (c : Fin 64) : EReal :=
  (agg I J (fun r => hW x I J D w1l b1 w1r w2l r c) n * inv D n
    + ∑ k : Fin 128, hK x I J D w1l b1 w1r n k * w2r (ix2 c k)) + b2 (ix1 c)

/-- The hidden state, the second way. -/
def hR (n : Fin 50000) (k : Fin 128) : EReal :=
  max ((∑ j : Fin 128, Ideal.div (agg I J (fun r => x (ix2 r j)) n) (D (ix2 n (0 : Fin 1))) * w1l (ix2 k j))
      + b1 (ix1 k) + (∑ j : Fin 128, x (ix2 n j) * w1r (ix2 k j))) zero'

/-- The result, the second way. -/
def outR (n : Fin 50000) (c : Fin 64) : EReal :=
  ((∑ k : Fin 128, Ideal.div (agg I J (fun r => hR x I J D w1l b1 w1r r k) n) (D (ix2 n (0 : Fin 1))) * w2l (ix2 c k))
    + b2 (ix1 c)) + ∑ k : Fin 128, hR x I J D w1l b1 w1r n k * w2r (ix2 c k)

/-- The two results as arrays. -/
def GK : (⟨2, ![50000, 64]⟩ : Shape).Idx → EReal :=
  fun i => outK x I J D w1l b1 w1r w2l b2 w2r ⟨(i 0).val, idx2_lt0 i⟩ ⟨(i 1).val, idx2_lt1 i⟩
def GR : (⟨2, ![50000, 64]⟩ : Shape).Idx → EReal :=
  fun i => outR x I J D w1l b1 w1r w2l b2 w2r ⟨(i 0).val, idx2_lt0 i⟩ ⟨(i 1).val, idx2_lt1 i⟩

variable {x I J D w1l b1 w1r w2l b2 w2r}

/-- Multiplying by the reciprocal is dividing, the divisor a nonzero real. -/
theorem mul_inv_eq_div (hD : ∀ n : Fin 50000, ∃ r : ℝ, r ≠ 0 ∧ D (ix2 n (0 : Fin 1)) = (r : EReal)) (y : EReal) (n : Fin 50000) :
    y * inv D n = Ideal.div y (D (ix2 n (0 : Fin 1))) := by
  obtain ⟨r, hr, e⟩ := hD n
  unfold inv
  rw [e, Ideal.div_coe hr, Ideal.div_coe hr, one'_eq, one_mul]

/-- The hidden states agree. -/
theorem hK_eq_hR (hD : ∀ n : Fin 50000, ∃ r : ℝ, r ≠ 0 ∧ D (ix2 n (0 : Fin 1)) = (r : EReal)) (n : Fin 50000) (k : Fin 128) :
    hK x I J D w1l b1 w1r n k = hR x I J D w1l b1 w1r n k := by
  unfold hK hR
  simp only [mul_inv_eq_div hD]
  rw [add_right_comm]

/-- On real inputs an aggregate of reals is real. -/
theorem agg_real (f : Fin 50000 → EReal) (hf : ∀ r, IsReal (f r)) (n : Fin 50000) : IsReal (agg I J f n) := by
  unfold agg
  rw [zero'_eq]
  exact IsReal.add IsReal.zero (IsReal.sum _ _ fun e => IsReal.ite (hf _) IsReal.zero)

/-- On real inputs the hidden state is real. -/
theorem hR_real (hx : ∀ i, IsReal (x i)) (hw1l : ∀ i, IsReal (w1l i)) (hb1 : ∀ i, IsReal (b1 i)) (hw1r : ∀ i, IsReal (w1r i))
    (hD : ∀ n : Fin 50000, ∃ r : ℝ, r ≠ 0 ∧ D (ix2 n (0 : Fin 1)) = (r : EReal)) (n : Fin 50000) (k : Fin 128) :
    IsReal (hR x I J D w1l b1 w1r n k) := by
  unfold hR
  rw [zero'_eq]
  refine IsReal.max (IsReal.add (IsReal.add (IsReal.sum _ _ fun j => IsReal.mul ?_ (hw1l _)) (hb1 _))
    (IsReal.sum _ _ fun j => IsReal.mul (hx _) (hw1r _))) IsReal.zero
  obtain ⟨r, hr, e⟩ := hD n
  rw [e, Ideal.div_coe hr]
  exact IsReal.mul (agg_real _ (fun _ => hx _) n) (IsReal.coe _)

/-- The second layer: aggregating the weighted hidden state and scaling is weighting the scaled aggregates. -/
theorem layer2 (hx : ∀ i, IsReal (x i)) (hw1l : ∀ i, IsReal (w1l i)) (hb1 : ∀ i, IsReal (b1 i)) (hw1r : ∀ i, IsReal (w1r i))
    (hw2l : ∀ i, IsReal (w2l i))
    (hD : ∀ n : Fin 50000, ∃ r : ℝ, r ≠ 0 ∧ D (ix2 n (0 : Fin 1)) = (r : EReal)) (n : Fin 50000) (c : Fin 64) :
    agg I J (fun r => ∑ k : Fin 128, hR x I J D w1l b1 w1r r k * w2l (ix2 c k)) n * inv D n
      = ∑ k : Fin 128, Ideal.div (agg I J (fun r => hR x I J D w1l b1 w1r r k) n) (D (ix2 n (0 : Fin 1))) * w2l (ix2 c k) := by
  -- the hidden state and the weight as reals
  choose hr hhr using fun r k => hR_real (I := I) (J := J) hx hw1l hb1 hw1r hD r k
  choose wr hwr using hw2l
  obtain ⟨s, hs, es⟩ := hD n
  have einv : inv D n = (((1 / s : ℝ)) : EReal) := by
    unfold inv; rw [es, Ideal.div_coe hs, one'_eq, one_mul]
  simp only [← mul_inv_eq_div hD]
  rw [einv]
  unfold agg
  rw [zero'_eq]
  simp only [hhr, hwr]
  exact agg_weight (fun e : Fin 600000 => (I (ix2 e (0 : Fin 1))).toInt = (n.val : Int)) (fun e k => hr (row J e) k)
    (fun k => wr (ix2 c k)) (1 / s)

/-- THE LAW: on real inputs the two ways give one result. -/
theorem outK_eq_outR (hx : ∀ i, IsReal (x i)) (hw1l : ∀ i, IsReal (w1l i)) (hb1 : ∀ i, IsReal (b1 i)) (hw1r : ∀ i, IsReal (w1r i))
    (hw2l : ∀ i, IsReal (w2l i))
    (hD : ∀ n : Fin 50000, ∃ r : ℝ, r ≠ 0 ∧ D (ix2 n (0 : Fin 1)) = (r : EReal)) (n : Fin 50000) (c : Fin 64) :
    outK x I J D w1l b1 w1r w2l b2 w2r n c = outR x I J D w1l b1 w1r w2l b2 w2r n c := by
  have hh : hK x I J D w1l b1 w1r = hR x I J D w1l b1 w1r := funext fun n => funext fun k => hK_eq_hR hD n k
  unfold outK outR hW
  rw [hh, layer2 hx hw1l hb1 hw1r hw2l hD n c, add_right_comm]

/-- The law for the arrays. -/
theorem GK_eq_GR (hx : ∀ i, IsReal (x i)) (hw1l : ∀ i, IsReal (w1l i)) (hb1 : ∀ i, IsReal (b1 i)) (hw1r : ∀ i, IsReal (w1r i))
    (hw2l : ∀ i, IsReal (w2l i))
    (hD : ∀ n : Fin 50000, ∃ r : ℝ, r ≠ 0 ∧ D (ix2 n (0 : Fin 1)) = (r : EReal)) :
    GK x I J D w1l b1 w1r w2l b2 w2r = GR x I J D w1l b1 w1r w2l b2 w2r :=
  funext fun _ => outK_eq_outR hx hw1l hb1 hw1r hw2l hD _ _

end Formulas

end Sage

end
-- ==== Proof.Layer.lean ====
/-
  One node tile of each layer, as a function of the tile's rows.

  Both kernels work on a tile of `R` consecutive nodes and compute every row of the tile from the same row of their
  inputs and from weights shared by all rows. `tileH` is the first kernel's hidden state (the neighbour sum `M` times the
  reciprocal degree `INV`, through the left weight; the node's own features `X` through the right weight; the bias;
  clamped at zero), `tileHW` the hidden state through the next layer's left weight, `tileOut` the second kernel's result
  (the neighbour sum times the reciprocal degree, plus the hidden state through the right weight, plus the bias). The
  weights are already transposed: entry `(j, k)` multiplies input column `j` into output column `k`.
  Since a row of the result reads only that row of the inputs, the formula at a row of a tile is the formula at the same
  row of the whole arrays (`tileH_congr`, `tileOut_congr`).
-/
import proofs.«150183_j2972117368898_2_alg».proof.Proof.Spec

noncomputable section

open scoped BigOperators

namespace Sage

open Idealize.ShloMosaic Idealize.ShloMosaic.ValueIdx

variable {R R' : Nat}

/-- The hidden state of row `n`, column `k`. -/
def tileH (M X : (⟨2, ![R, 128]⟩ : Shape).Idx → EReal) (INV : (⟨2, ![R, 1]⟩ : Shape).Idx → EReal)
    (WL : (⟨2, ![128, 128]⟩ : Shape).Idx → EReal) (B : (⟨2, ![1, 128]⟩ : Shape).Idx → EReal)
    (WR : (⟨2, ![128, 128]⟩ : Shape).Idx → EReal) (n : Fin R) (k : Fin 128) : EReal :=
  max ((∑ j : Fin 128, (M (ix2 n j) * INV (ix2 n (0 : Fin 1))) * WL (ix2 j k))
      + (∑ j : Fin 128, X (ix2 n j) * WR (ix2 j k)) + B (ix2 (0 : Fin 1) k)) zero'

/-- The hidden state through the next layer's left weight. -/
def tileHW (M X : (⟨2, ![R, 128]⟩ : Shape).Idx → EReal) (INV : (⟨2, ![R, 1]⟩ : Shape).Idx → EReal)
    (WL : (⟨2, ![128, 128]⟩ : Shape).Idx → EReal) (B : (⟨2, ![1, 128]⟩ : Shape).Idx → EReal)
    (WR : (⟨2, ![128, 128]⟩ : Shape).Idx → EReal) (W2 : (⟨2, ![128, 64]⟩ : Shape).Idx → EReal) (n : Fin R) (c : Fin 64) : EReal :=
  ∑ k : Fin 128, tileH M X INV WL B WR n k * W2 (ix2 k c)

/-- The second layer's result at row `n`, column `c`. -/
def tileOut (M2 : (⟨2, ![R, 64]⟩ : Shape).Idx → EReal) (H : (⟨2, ![R, 128]⟩ : Shape).Idx → EReal)
    (INV : (⟨2, ![R, 1]⟩ : Shape).Idx → EReal) (WR2 : (⟨2, ![128, 64]⟩ : Shape).Idx → EReal)
    (B2 : (⟨2, ![1, 64]⟩ : Shape).Idx → EReal) (n : Fin R) (c : Fin 64) : EReal :=
  (M2 (ix2 n c) * INV (ix2 n (0 : Fin 1)) + ∑ k : Fin 128, H (ix2 n k) * WR2 (ix2 k c)) + B2 (ix2 (0 : Fin 1) c)

theorem tileH_congr {M X : (⟨2, ![R, 128]⟩ : Shape).Idx → EReal} {INV : (⟨2, ![R, 1]⟩ : Shape).Idx → EReal}
    {M' X' : (⟨2, ![R', 128]⟩ : Shape).Idx → EReal} {INV' : (⟨2, ![R', 1]⟩ : Shape).Idx → EReal}
    (WL : (⟨2, ![128, 128]⟩ : Shape).Idx → EReal) (B : (⟨2, ![1, 128]⟩ : Shape).Idx → EReal)
    (WR : (⟨2, ![128, 128]⟩ : Shape).Idx → EReal) {n : Fin R} {n' : Fin R'}
    (hM : ∀ j, M (ix2 n j) = M' (ix2 n' j)) (hX : ∀ j, X (ix2 n j) = X' (ix2 n' j))
    (hI : INV (ix2 n (0 : Fin 1)) = INV' (ix2 n' (0 : Fin 1))) (k : Fin 128) :
    tileH M X INV WL B WR n k = tileH M' X' INV' WL B WR n' k := by
  unfold tileH
  simp only [hM, hX, hI]

theorem tileHW_congr {M X : (⟨2, ![R, 128]⟩ : Shape).Idx → EReal} {INV : (⟨2, ![R, 1]⟩ : Shape).Idx → EReal}
    {M' X' : (⟨2, ![R', 128]⟩ : Shape).Idx → EReal} {INV' : (⟨2, ![R', 1]⟩ : Shape).Idx → EReal}
    (WL : (⟨2, ![128, 128]⟩ : Shape).Idx → EReal) (B : (⟨2, ![1, 128]⟩ : Shape).Idx → EReal)
    (WR : (⟨2, ![128, 128]⟩ : Shape).Idx → EReal) (W2 : (⟨2, ![128, 64]⟩ : Shape).Idx → EReal) {n : Fin R} {n' : Fin R'}
    (hM : ∀ j, M (ix2 n j) = M' (ix2 n' j)) (hX : ∀ j, X (ix2 n j) = X' (ix2 n' j))
    (hI : INV (ix2 n (0 : Fin 1)) = INV' (ix2 n' (0 : Fin 1))) (c : Fin 64) :
    tileHW M X INV WL B WR W2 n c = tileHW M' X' INV' WL B WR W2 n' c := by
  unfold tileHW
  simp only [tileH_congr WL B WR hM hX hI]

theorem tileOut_congr {M2 : (⟨2, ![R, 64]⟩ : Shape).Idx → EReal} {H : (⟨2, ![R, 128]⟩ : Shape).Idx → EReal}
    {INV : (⟨2, ![R, 1]⟩ : Shape).Idx → EReal}
    {M2' : (⟨2, ![R', 64]⟩ : Shape).Idx → EReal} {H' : (⟨2, ![R', 128]⟩ : Shape).Idx → EReal}
    {INV' : (⟨2, ![R', 1]⟩ : Shape).Idx → EReal}
    (WR2 : (⟨2, ![128, 64]⟩ : Shape).Idx → EReal) (B2 : (⟨2, ![1, 64]⟩ : Shape).Idx → EReal) {n : Fin R} {n' : Fin R'}
    (hM : ∀ c, M2 (ix2 n c) = M2' (ix2 n' c)) (hH : ∀ k, H (ix2 n k) = H' (ix2 n' k))
    (hI : INV (ix2 n (0 : Fin 1)) = INV' (ix2 n' (0 : Fin 1))) (c : Fin 64) :
    tileOut M2 H INV WR2 B2 n c = tileOut M2' H' INV' WR2 B2 n' c := by
  unfold tileOut
  simp only [hM, hH, hI]

end Sage

end
-- ==== Proof.KBody.lean ====
/-
  What each kernel body stores, at an index: the body's arithmetic on its loaded blocks is, entry by entry, the tile
  formula of `Layer.lean`. The matrix products into a zero accumulator are sums over the contracted axis, the column of
  reciprocal degrees is repeated across the columns, the bias row is repeated down the rows, and the changes of float
  format are the identity on extended reals.
-/
import proofs.«150183_j2972117368898_2_alg».proof.Proof.Gen.KernelIdeal.Skeleton
import Idealize.ShloMosaic.Lib.ValueIdx
import Idealize.ShloMosaic.Lib.ValueLayout
import Idealize.ShloMosaic.Lib.Pipeline.Value
import proofs.«150183_j2972117368898_2_alg».proof.Proof.LibPlainDot
import proofs.«150183_j2972117368898_2_alg».proof.Proof.LibColumn
import proofs.«150183_j2972117368898_2_alg».proof.Proof.Layer

noncomputable section

open scoped BigOperators

namespace Cert.KernelIdeal.KVal

open Cert.KernelIdeal Cert.KernelIdeal.Gen Idealize.ShloMosaic Idealize.ShloMosaic.ValueIdx

/-- The first kernel's hidden state block. -/
theorem pay1_apply (v0 : Vec Ideal S5000x1 .f32) (v2 v7 : Vec Ideal S5000x128 .f32) (v9 v12 : Vec Ideal S128x128 .f32)
    (v18 : Vec Ideal S1x128 .f32) (p : Fin 5000) (k : Fin 128) :
    k0_pay1 (F := Ideal) v0 v2 v7 v9 v12 v18 (ix2 p k) = Sage.tileH (R := 5000) v2 v7 v0 v9 v18 v12 p k := by
  unfold k0_pay1 Sage.tileH
  rw [show dot_S5000x128_S128x128_S5000x128_1_0_0_1_n_n = DotDims.plain 5000 128 128 from rfl]
  simp only [maximumf_apply, addf_apply, PlainDot.matmul_zero_apply, truncf_apply, mulf_apply, shapeCast_self,
    ColumnLayout.broadcastTo_a1_ab_apply, broadcastTo_1b_ab_apply, broadcast_apply]
  rfl

/-- The first kernel's second block: the hidden state through the next layer's left weight. -/
theorem pay2_apply (v0 : Vec Ideal S5000x1 .f32) (v2 v7 : Vec Ideal S5000x128 .f32) (v9 v12 : Vec Ideal S128x128 .f32)
    (v18 : Vec Ideal S1x128 .f32) (v26 : Vec Ideal S128x64 .f32) (p : Fin 5000) (c : Fin 64) :
    k0_pay2 (F := Ideal) v0 v2 v7 v9 v12 v18 v26 (ix2 p c) = Sage.tileHW (R := 5000) v2 v7 v0 v9 v18 v12 v26 p c := by
  unfold k0_pay2 Sage.tileHW
  rw [show dot_S5000x128_S128x64_S5000x64_1_0_0_1_n_n = DotDims.plain 5000 128 64 from rfl]
  simp only [PlainDot.matmul_zero_apply, truncf_apply, shapeCast_self, pay1_apply]

/-- The second kernel's block. -/
theorem pay3_apply (v0 : Vec Ideal S5000x1 .f32) (v2 : Vec Ideal S5000x64 .f32) (v6 : Vec Ideal S5000x128 .f32)
    (v9 : Vec Ideal S128x64 .f32) (v14 : Vec Ideal S1x64 .f32) (p : Fin 5000) (c : Fin 64) :
    k1_pay1 (F := Ideal) v0 v2 v6 v9 v14 (ix2 p c) = Sage.tileOut (R := 5000) v2 v6 v0 v9 v14 p c := by
  unfold k1_pay1 Sage.tileOut
  rw [show dot_S5000x128_S128x64_S5000x64_1_0_0_1_n_n = DotDims.plain 5000 128 64 from rfl]
  simp only [addf_apply, PlainDot.matmul_zero_apply, truncf_apply, mulf_apply, shapeCast_self,
    ColumnLayout.broadcastTo_a1_ab_apply, broadcastTo_1b_ab_apply]

end Cert.KernelIdeal.KVal

end
-- ==== Proof.KVal0.lean ====
/-
  The first kernel's two output arrays, from the arrays it is launched on.

  The grid has ten points; point `t` works on rows `5000 t … 5000 t + 4999` of the three row-tiled operands (the
  neighbour sums, the features, the reciprocal degrees) and on the whole of the four weight operands, and writes rows
  `5000 t … 5000 t + 4999` of both results. A row of a result reads only the same row of the operands, so what point `t`
  writes back is block `t` of ONE function of the whole arrays — the tile formula at every row — and the ten blocks
  cover the array: after the launch each result array is that function.
-/
import proofs.«150183_j2972117368898_2_alg».proof.Proof.Gen.KernelIdeal.Frame
import Idealize.ShloMosaic.Lib.Pipeline.Value
import proofs.«150183_j2972117368898_2_alg».proof.Proof.KBody

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of tile `t` is row `5000 t + p` of the array. -/
def rowOf (t : Fin 10) (p : Fin 5000) : Fin 50000 := ⟨t.val * 5000 + p.val, by have := t.isLt; have := p.isLt; omega⟩

/-- The printed index maps over the grid: the row-tiled windows are at block row `t`, block column `0`; the weight
    windows stay at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## Each window's block, entry by entry -/

theorem blk0_0 (c : Dev nD) (t : Fin cfg0.N) (p : Fin 5000) (j : Fin 128) :
    iblk0 V c 0 t (ix2 p j) = V c main_v21 (ix2 (rowOf t p) j) := by
  show V c main_v21 (((cfg0.win 0).blk t).view.emb (ix2 p j)) = _
  refine congrArg (V c main_v21) (funext fun a => Fin.ext ?_)
  have f := (idx_facts0 t).1
  match a with
  | ⟨0, _⟩ => show win0_0.index t (0 : Fin 2) * 5000 + 1 * p.val = t.val * 5000 + p.val; rw [f.1]; omega
  | ⟨1, _⟩ => show win0_0.index t (1 : Fin 2) * 128 + 1 * j.val = j.val; rw [f.2]; omega

theorem blk0_1 (c : Dev nD) (t : Fin cfg0.N) (p : Fin 5000) (j : Fin 128) :
    iblk0 V c 1 t (ix2 p j) = V c main_arg0 (ix2 (rowOf t p) j) := by
  show V c main_arg0 (((cfg0.win 1).blk t).view.emb (ix2 p j)) = _
  refine congrArg (V c main_arg0) (funext fun a => Fin.ext ?_)
  have f := (idx_facts0 t).2.1
  match a with
  | ⟨0, _⟩ => show win0_1.index t (0 : Fin 2) * 5000 + 1 * p.val = t.val * 5000 + p.val; rw [f.1]; omega
  | ⟨1, _⟩ => show win0_1.index t (1 : Fin 2) * 128 + 1 * j.val = j.val; rw [f.2]; omega

theorem blk0_2 (c : Dev nD) (t : Fin cfg0.N) (p : Fin 5000) :
    iblk0 V c 2 t (ix2 p (0 : Fin 1)) = V c main_v11 (ix2 (rowOf t p) (0 : Fin 1)) := by
  show V c main_v11 (((cfg0.win 2).blk t).view.emb (ix2 p (0 : Fin 1))) = _
  refine congrArg (V c main_v11) (funext fun a => Fin.ext ?_)
  have f := (idx_facts0 t).2.2.1
  match a with
  | ⟨0, _⟩ => show win0_2.index t (0 : Fin 2) * 5000 + 1 * p.val = t.val * 5000 + p.val; rw [f.1]; omega
  | ⟨1, _⟩ => show win0_2.index t (1 : Fin 2) * 1 + 1 * 0 = 0; rw [f.2]

theorem blk0_3 (c : Dev nD) (t : Fin cfg0.N) (j k : Fin 128) :
    iblk0 V c 3 t (ix2 j k) = V c main_v22 (ix2 j k) := by
  show V c main_v22 (((cfg0.win 3).blk t).view.emb (ix2 j k)) = _
  refine congrArg (V c main_v22) (funext fun a => Fin.ext ?_)
  have f := (idx_facts0 t).2.2.2.1
  match a with
  | ⟨0, _⟩ => show win0_3.index t (0 : Fin 2) * 128 + 1 * j.val = j.val; rw [f.1]; omega
  | ⟨1, _⟩ => show win0_3.index t (1 : Fin 2) * 128 + 1 * k.val = k.val; rw [f.2]; omega

theorem blk0_4 (c : Dev nD) (t : Fin cfg0.N) (k : Fin 128) :
    iblk0 V c 4 t (ix2 (0 : Fin 1) k) = V c main_v25 (ix2 (0 : Fin 1) k) := by
  show V c main_v25 (((cfg0.win 4).blk t).view.emb (ix2 (0 : Fin 1) k)) = _
  refine congrArg (V c main_v25) (funext fun a => Fin.ext ?_)
  have f := (idx_facts0 t).2.2.2.2.1
  match a with
  | ⟨0, _⟩ => show win0_4.index t (0 : Fin 2) * 1 + 1 * 0 = 0; rw [f.1]
  | ⟨1, _⟩ => show win0_4.index t (1 : Fin 2) * 128 + 1 * k.val = k.val; rw [f.2]; omega

theorem blk0_5 (c : Dev nD) (t : Fin cfg0.N) (j k : Fin 128) :
    iblk0 V c 5 t (ix2 j k) = V c main_v23 (ix2 j k) := by
  show V c main_v23 (((cfg0.win 5).blk t).view.emb (ix2 j k)) = _
  refine congrArg (V c main_v23) (funext fun a => Fin.ext ?_)
  have f := (idx_facts0 t).2.2.2.2.2.1
  match a with
  | ⟨0, _⟩ => show win0_5.index t (0 : Fin 2) * 128 + 1 * j.val = j.val; rw [f.1]; omega
  | ⟨1, _⟩ => show win0_5.index t (1 : Fin 2) * 128 + 1 * k.val = k.val; rw [f.2]; omega

theorem blk0_6 (c : Dev nD) (t : Fin cfg0.N) (k : Fin 128) (q : Fin 64) :
    iblk0 V c 6 t (ix2 k q) = V c main_v24 (ix2 k q) := by
  show V c main_v24 (((cfg0.win 6).blk t).view.emb (ix2 k q)) = _
  refine congrArg (V c main_v24) (funext fun a => Fin.ext ?_)
  have f := (idx_facts0 t).2.2.2.2.2.2.1
  match a with
  | ⟨0, _⟩ => show win0_6.index t (0 : Fin 2) * 128 + 1 * k.val = k.val; rw [f.1]; omega
  | ⟨1, _⟩ => show win0_6.index t (1 : Fin 2) * 64 + 1 * q.val = q.val; rw [f.2]; omega

/-! ## The two result arrays -/

/-- The hidden state of every node. -/
def H0 (c : Dev nD) : S50000x128.Idx → EReal := fun i =>
  Sage.tileH (R := 50000) (V c main_v21) (V c main_arg0) (V c main_v11) (V c main_v22) (V c main_v25) (V c main_v23)
    ⟨(i 0).val, idx2_lt0 i⟩ ⟨(i 1).val, idx2_lt1 i⟩

/-- The hidden state of every node through the next layer's left weight. -/
def HW0 (c : Dev nD) : S50000x64.Idx → EReal := fun i =>
  Sage.tileHW (R := 50000) (V c main_v21) (V c main_arg0) (V c main_v11) (V c main_v22) (V c main_v25) (V c main_v23) (V c main_v24)
    ⟨(i 0).val, idx2_lt0 i⟩ ⟨(i 1).val, idx2_lt1 i⟩

/-- Entry `(p, k)` of what point `t` stores in the first result's block. -/
theorem stored7 (c : Dev nD) (t : Fin cfg0.N) (p : Fin 5000) (k : Fin 128) :
    k0_pay1 (F := Ideal) (iblk0 V c 2 t) (iblk0 V c 0 t) (iblk0 V c 1 t) (iblk0 V c 3 t) (iblk0 V c 5 t) (iblk0 V c 4 t) (ix2 p k)
      = H0 V c (ix2 (rowOf t p) k) := by
  refine (pay1_apply (iblk0 V c 2 t) (iblk0 V c 0 t) (iblk0 V c 1 t) (iblk0 V c 3 t) (iblk0 V c 5 t) (iblk0 V c 4 t) p k).trans ?_
  unfold H0 Sage.tileH
  simp only [blk0_0, blk0_1, blk0_2, blk0_3, blk0_4, blk0_5]

/-- Entry `(p, q)` of what point `t` stores in the second result's block. -/
theorem stored8 (c : Dev nD) (t : Fin cfg0.N) (p : Fin 5000) (q : Fin 64) :
    k0_pay2 (F := Ideal) (iblk0 V c 2 t) (iblk0 V c 0 t) (iblk0 V c 1 t) (iblk0 V c 3 t) (iblk0 V c 5 t) (iblk0 V c 4 t) (iblk0 V c 6 t) (ix2 p q)
      = HW0 V c (ix2 (rowOf t p) q) := by
  refine (pay2_apply (iblk0 V c 2 t) (iblk0 V c 0 t) (iblk0 V c 1 t) (iblk0 V c 3 t) (iblk0 V c 5 t) (iblk0 V c 4 t) (iblk0 V c 6 t) p q).trans ?_
  unfold HW0 Sage.tileHW Sage.tileH
  simp only [blk0_0, blk0_1, blk0_2, blk0_3, blk0_4, blk0_5, blk0_6]

/-- Where entry `(p, k)` of block `t` of the first result sits in the array. -/
theorem emb7 (t : Fin cfg0.N) (p : Fin 5000) (k : Fin 128) :
    ((cfg0.win 7).blk t).view.emb (ix2 p k) = ix2 (rowOf t p) k := by
  refine funext fun a => Fin.ext ?_
  have f := (idx_facts0 t).2.2.2.2.2.2.2.1
  match a with
  | ⟨0, _⟩ => show win0_7.index t (0 : Fin 2) * 5000 + 1 * p.val = t.val * 5000 + p.val; rw [f.1]; omega
  | ⟨1, _⟩ => show win0_7.index t (1 : Fin 2) * 128 + 1 * k.val = k.val; rw [f.2]; omega

theorem emb8 (t : Fin cfg0.N) (p : Fin 5000) (q : Fin 64) :
    ((cfg0.win 8).blk t).view.emb (ix2 p q) = ix2 (rowOf t p) q := by
  refine funext fun a => Fin.ext ?_
  have f := (idx_facts0 t).2.2.2.2.2.2.2.2
  match a with
  | ⟨0, _⟩ => show win0_8.index t (0 : Fin 2) * 5000 + 1 * p.val = t.val * 5000 + p.val; rw [f.1]; omega
  | ⟨1, _⟩ => show win0_8.index t (1 : Fin 2) * 64 + 1 * q.val = q.val; rw [f.2]; omega

/-- WHAT POINT `t` WRITES BACK to the first result is block `t` of `H0`. -/
theorem flushed7_eq (c : Dev nD) (t : Fin cfg0.N) :
    (dat0 V c).flushed 7 t = ((cfg0.win 7).blk t).view.read (Elt Ideal) (H0 V c) := by
  show (cfg0.win 7).cut (grid0.coords t) ((dat0 V c).after 7 t) = _
  rw [after0_7]
  unfold out0_7
  rw [View.canon_unit_zero hz]
  simp only [View.ld_unit_zero (S := S5000x1) hz, View.ld_unit_zero (S := S5000x128) hz, View.ld_unit_zero (S := S128x128) hz,
    View.ld_unit_zero (S := S1x128) hz]
  funext y
  revert y
  show ∀ y : S5000x128.Idx, k0_pay1 (F := Ideal) (iblk0 V c 2 t) (iblk0 V c 0 t) (iblk0 V c 1 t) (iblk0 V c 3 t) (iblk0 V c 5 t) (iblk0 V c 4 t) y
    = H0 V c (((cfg0.win 7).blk t).view.emb y)
  intro y
  obtain ⟨p, k, rfl⟩ : ∃ (p : Fin 5000) (k : Fin 128), y = ix2 p k := ⟨y 0, y 1, eq_ix2 y⟩
  rw [emb7]
  exact stored7 V c t p k

/-- WHAT POINT `t` WRITES BACK to the second result is block `t` of `HW0`. -/
theorem flushed8_eq (c : Dev nD) (t : Fin cfg0.N) :
    (dat0 V c).flushed 8 t = ((cfg0.win 8).blk t).view.read (Elt Ideal) (HW0 V c) := by
  show (cfg0.win 8).cut (grid0.coords t) ((dat0 V c).after 8 t) = _
  rw [after0_8]
  unfold out0_8
  rw [View.canon_unit_zero hz]
  simp only [View.ld_unit_zero (S := S5000x1) hz, View.ld_unit_zero (S := S5000x128) hz, View.ld_unit_zero (S := S128x128) hz,
    View.ld_unit_zero (S := S1x128) hz, View.ld_unit_zero (S := S128x64) hz]
  funext y
  revert y
  show ∀ y : S5000x64.Idx, k0_pay2 (F := Ideal) (iblk0 V c 2 t) (iblk0 V c 0 t) (iblk0 V c 1 t) (iblk0 V c 3 t) (iblk0 V c 5 t) (iblk0 V c 4 t) (iblk0 V c 6 t) y
    = HW0 V c (((cfg0.win 8).blk t).view.emb y)
  intro y
  obtain ⟨p, q, rfl⟩ : ∃ (p : Fin 5000) (q : Fin 64), y = ix2 p q := ⟨y 0, y 1, eq_ix2 y⟩
  rw [emb8]
  exact stored8 V c t p q

/-! ## The ten blocks cover each array -/

theorem mem_blk7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v26_0).slice (win0_7.rect t)).set ↔ _
  rw [View.set_slice_whole, Rect.mem_set_unit]
  exact Iff.rfl

theorem mem_blk8 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v26_1).slice (win0_8.rect t)).set ↔ _
  rw [View.set_slice_whole, Rect.mem_set_unit]
  exact Iff.rfl

theorem cover7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  refine ⟨⟨(i 0).val / 5000, by show (i 0).val / 5000 < 10; omega⟩, flush0_7 _, ?_⟩
  rw [mem_blk7]
  have f := (idx_facts0 ⟨(i 0).val / 5000, by show (i 0).val / 5000 < 10; omega⟩).2.2.2.2.2.2.2.1
  intro a
  match a with
  | ⟨0, _⟩ =>
    show win0_7.index _ (0 : Fin 2) * 5000 ≤ (i 0).val ∧ (i 0).val < win0_7.index _ (0 : Fin 2) * 5000 + 5000
    rw [f.1]; show (i 0).val / 5000 * 5000 ≤ (i 0).val ∧ (i 0).val < (i 0).val / 5000 * 5000 + 5000; omega
  | ⟨1, _⟩ =>
    show win0_7.index _ (1 : Fin 2) * 128 ≤ (i 1).val ∧ (i 1).val < win0_7.index _ (1 : Fin 2) * 128 + 128
    rw [f.2]; omega

theorem cover8 (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  refine ⟨⟨(i 0).val / 5000, by show (i 0).val / 5000 < 10; omega⟩, flush0_8 _, ?_⟩
  rw [mem_blk8]
  have f := (idx_facts0 ⟨(i 0).val / 5000, by show (i 0).val / 5000 < 10; omega⟩).2.2.2.2.2.2.2.2
  intro a
  match a with
  | ⟨0, _⟩ =>
    show win0_8.index _ (0 : Fin 2) * 5000 ≤ (i 0).val ∧ (i 0).val < win0_8.index _ (0 : Fin 2) * 5000 + 5000
    rw [f.1]; show (i 0).val / 5000 * 5000 ≤ (i 0).val ∧ (i 0).val < (i 0).val / 5000 * 5000 + 5000; omega
  | ⟨1, _⟩ =>
    show win0_8.index _ (1 : Fin 2) * 64 ≤ (i 1).val ∧ (i 1).val < win0_8.index _ (1 : Fin 2) * 64 + 64
    rw [f.2]; omega

/-- THE FIRST RESULT after the launch. -/
theorem final7 (c : Dev nD) : (dat0 V c).arrAt 7 cfg0.N = H0 V c :=
  (dat0 V c).arrAt_eq_of_cover 7 (H0 V c) (fun t _ => flushed7_eq V c t) cover7

/-- THE SECOND RESULT after the launch. -/
theorem final8 (c : Dev nD) : (dat0 V c).arrAt 8 cfg0.N = HW0 V c :=
  (dat0 V c).arrAt_eq_of_cover 8 (HW0 V c) (fun t _ => flushed8_eq V c t) cover8

end Cert.KernelIdeal.KVal

end
-- ==== Proof.KVal1.lean ====
/-
  The second kernel's output array, from the arrays it is launched on.

  Again ten points; point `t` reads rows `5000 t … 5000 t + 4999` of the aggregated messages, of the hidden state and of
  the reciprocal degrees, the whole right weight and the bias row, and writes the same rows of the result. What it writes
  back is block `t` of one function of the whole arrays, and the ten blocks cover the result.
-/
import proofs.«150183_j2972117368898_2_alg».proof.Proof.Gen.KernelIdeal.Frame
import Idealize.ShloMosaic.Lib.Pipeline.Value
import proofs.«150183_j2972117368898_2_alg».proof.Proof.KBody
import proofs.«150183_j2972117368898_2_alg».proof.Proof.KVal0

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem blk1_0 (c : Dev nD) (t : Fin cfg1.N) (p : Fin 5000) (q : Fin 64) :
    iblk1 V c 0 t (ix2 p q) = V c main_v36 (ix2 (rowOf t p) q) := by
  show V c main_v36 (((cfg1.win 0).blk t).view.emb (ix2 p q)) = _
  refine congrArg (V c main_v36) (funext fun a => Fin.ext ?_)
  have f := (idx_facts1 t).1
  match a with
  | ⟨0, _⟩ => show win1_0.index t (0 : Fin 2) * 5000 + 1 * p.val = t.val * 5000 + p.val; rw [f.1]; omega
  | ⟨1, _⟩ => show win1_0.index t (1 : Fin 2) * 64 + 1 * q.val = q.val; rw [f.2]; omega

theorem blk1_1 (c : Dev nD) (t : Fin cfg1.N) (p : Fin 5000) (k : Fin 128) :
    iblk1 V c 1 t (ix2 p k) = V c main_v26_0 (ix2 (rowOf t p) k) := by
  show V c main_v26_0 (((cfg1.win 1).blk t).view.emb (ix2 p k)) = _
  refine congrArg (V c main_v26_0) (funext fun a => Fin.ext ?_)
  have f := (idx_facts1 t).2.1
  match a with
  | ⟨0, _⟩ => show win1_1.index t (0 : Fin 2) * 5000 + 1 * p.val = t.val * 5000 + p.val; rw [f.1]; omega
  | ⟨1, _⟩ => show win1_1.index t (1 : Fin 2) * 128 + 1 * k.val = k.val; rw [f.2]; omega

theorem blk1_2 (c : Dev nD) (t : Fin cfg1.N) (p : Fin 5000) :
    iblk1 V c 2 t (ix2 p (0 : Fin 1)) = V c main_v11 (ix2 (rowOf t p) (0 : Fin 1)) := by
  show V c main_v11 (((cfg1.win 2).blk t).view.emb (ix2 p (0 : Fin 1))) = _
  refine congrArg (V c main_v11) (funext fun a => Fin.ext ?_)
  have f := (idx_facts1 t).2.2.1
  match a with
  | ⟨0, _⟩ => show win1_2.index t (0 : Fin 2) * 5000 + 1 * p.val = t.val * 5000 + p.val; rw [f.1]; omega
  | ⟨1, _⟩ => show win1_2.index t (1 : Fin 2) * 1 + 1 * 0 = 0; rw [f.2]

theorem blk1_3 (c : Dev nD) (t : Fin cfg1.N) (k : Fin 128) (q : Fin 64) :
    iblk1 V c 3 t (ix2 k q) = V c main_v37 (ix2 k q) := by
  show V c main_v37 (((cfg1.win 3).blk t).view.emb (ix2 k q)) = _
  refine congrArg (V c main_v37) (funext fun a => Fin.ext ?_)
  have f := (idx_facts1 t).2.2.2.1
  match a with
  | ⟨0, _⟩ => show win1_3.index t (0 : Fin 2) * 128 + 1 * k.val = k.val; rw [f.1]; omega
  | ⟨1, _⟩ => show win1_3.index t (1 : Fin 2) * 64 + 1 * q.val = q.val; rw [f.2]; omega

theorem blk1_4 (c : Dev nD) (t : Fin cfg1.N) (q : Fin 64) :
    iblk1 V c 4 t (ix2 (0 : Fin 1) q) = V c main_v38 (ix2 (0 : Fin 1) q) := by
  show V c main_v38 (((cfg1.win 4).blk t).view.emb (ix2 (0 : Fin 1) q)) = _
  refine congrArg (V c main_v38) (funext fun a => Fin.ext ?_)
  have f := (idx_facts1 t).2.2.2.2.1
  match a with
  | ⟨0, _⟩ => show win1_4.index t (0 : Fin 2) * 1 + 1 * 0 = 0; rw [f.1]
  | ⟨1, _⟩ => show win1_4.index t (1 : Fin 2) * 64 + 1 * q.val = q.val; rw [f.2]; omega

/-- The result for every node. -/
def OUT1 (c : Dev nD) : S50000x64.Idx → EReal := fun i =>
  Sage.tileOut (R := 50000) (V c main_v36) (V c main_v26_0) (V c main_v11) (V c main_v37) (V c main_v38)
    ⟨(i 0).val, idx2_lt0 i⟩ ⟨(i 1).val, idx2_lt1 i⟩

theorem stored5 (c : Dev nD) (t : Fin cfg1.N) (p : Fin 5000) (q : Fin 64) :
    k1_pay1 (F := Ideal) (iblk1 V c 2 t) (iblk1 V c 0 t) (iblk1 V c 1 t) (iblk1 V c 3 t) (iblk1 V c 4 t) (ix2 p q)
      = OUT1 V c (ix2 (rowOf t p) q) := by
  refine (pay3_apply (iblk1 V c 2 t) (iblk1 V c 0 t) (iblk1 V c 1 t) (iblk1 V c 3 t) (iblk1 V c 4 t) p q).trans ?_
  unfold OUT1 Sage.tileOut
  simp only [blk1_0, blk1_1, blk1_2, blk1_3, blk1_4]

theorem emb5 (t : Fin cfg1.N) (p : Fin 5000) (q : Fin 64) :
    ((cfg1.win 5).blk t).view.emb (ix2 p q) = ix2 (rowOf t p) q := by
  refine funext fun a => Fin.ext ?_
  have f := (idx_facts1 t).2.2.2.2.2
  match a with
  | ⟨0, _⟩ => show win1_5.index t (0 : Fin 2) * 5000 + 1 * p.val = t.val * 5000 + p.val; rw [f.1]; omega
  | ⟨1, _⟩ => show win1_5.index t (1 : Fin 2) * 64 + 1 * q.val = q.val; rw [f.2]; omega

/-- WHAT POINT `t` WRITES BACK is block `t` of `OUT1`. -/
theorem flushed5_eq (c : Dev nD) (t : Fin cfg1.N) :
    (dat1 V c).flushed 5 t = ((cfg1.win 5).blk t).view.read (Elt Ideal) (OUT1 V c) := by
  show (cfg1.win 5).cut (grid1.coords t) ((dat1 V c).after 5 t) = _
  rw [after1_5]
  unfold out1_5
  rw [View.canon_unit_zero hz]
  simp only [View.ld_unit_zero (S := S5000x1) hz, View.ld_unit_zero (S := S5000x128) hz, View.ld_unit_zero (S := S5000x64) hz,
    View.ld_unit_zero (S := S1x64) hz, View.ld_unit_zero (S := S128x64) hz]
  funext y
  revert y
  show ∀ y : S5000x64.Idx, k1_pay1 (F := Ideal) (iblk1 V c 2 t) (iblk1 V c 0 t) (iblk1 V c 1 t) (iblk1 V c 3 t) (iblk1 V c 4 t) y
    = OUT1 V c (((cfg1.win 5).blk t).view.emb y)
  intro y
  obtain ⟨p, q, rfl⟩ : ∃ (p : Fin 5000) (q : Fin 64), y = ix2 p q := ⟨y 0, y 1, eq_ix2 y⟩
  rw [emb5]
  exact stored5 V c t p q

theorem mem_blk5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

theorem cover5 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  refine ⟨⟨(i 0).val / 5000, by show (i 0).val / 5000 < 10; omega⟩, flush1_5 _, ?_⟩
  rw [mem_blk5]
  have f := (idx_facts1 ⟨(i 0).val / 5000, by show (i 0).val / 5000 < 10; omega⟩).2.2.2.2.2
  intro a
  match a with
  | ⟨0, _⟩ =>
    show win1_5.index _ (0 : Fin 2) * 5000 ≤ (i 0).val ∧ (i 0).val < win1_5.index _ (0 : Fin 2) * 5000 + 5000
    rw [f.1]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [f.2]; omega

/-- THE RESULT after the launch. -/
theorem final5 (c : Dev nD) : (dat1 V c).arrAt 5 cfg1.N = OUT1 V c :=
  (dat1 V c).arrAt_eq_of_cover 5 (OUT1 V c) (fun t _ => flushed5_eq V c t) cover5

end Cert.KernelIdeal.KVal

end
-- ==== Proof.AggRead.lean ====
/-
  The host's gather-then-scatter-add of whole rows is the aggregation over edges: entry `(n, c)` of
  `scatter_add(zeros, dst, gather(X, src))` is the zero word plus the sum, over the edges `e` whose destination word is
  `n`, of `X` at the edge's (clamped) source row, column `c`. Also the small layout facts the two programs share: a
  splat constant read at an index, and the reciprocal-degree column.
-/
import Idealize.ShloMosaic.Lib.Pipeline.Value
import Idealize.ShloMosaic.Lib.ValueLayout
import proofs.«150183_j2972117368898_2_alg».proof.Proof.Spec

noncomputable section

open scoped BigOperators

namespace Sage

open Idealize.ShloMosaic Idealize.ShloMosaic.ValueIdx Idealize.ShloMosaic.RowOps

/-- Gather rows, then add them into their destination rows: the aggregation over edges. -/
theorem agg_read {C : Nat}
    (wfS : ScatterDims.WF ⟨2, ![50000, C]⟩ ⟨2, ![600000, 1]⟩ ⟨2, ![600000, C]⟩ [1] [0] [0] 1)
    (wfG : GatherDims.WF ⟨2, ![50000, C]⟩ ⟨2, ![600000, 1]⟩ ⟨2, ![600000, C]⟩ [1] [0] [] [0] [] 1 ![1, C])
    (Z : (⟨2, ![50000, C]⟩ : Shape).Idx → EReal) (hZ : ∀ i, Z i = zero')
    (X : (⟨2, ![50000, C]⟩ : Shape).Idx → EReal) (I J : IVec ⟨2, ![600000, 1]⟩ 32) (n : Fin 50000) (c : Fin C) :
    Host.scatterAdd (F := Ideal) (φ := .f32) (rowScatterDims 50000 600000 C wfS) Z I
        (Host.gather (rowGatherDims 50000 600000 C wfG) X J) (ix2 n c)
      = agg I J (fun r => X (ix2 r c)) n := by
  rw [scatterAdd_rows_apply, hZ]
  unfold agg row
  simp only [gather_rows_apply (N := 50000) (by decide)]

/-- The clamped degree of a node is a nonzero real: one plus-or-more, being the larger of a count and one. -/
theorem deg_real (wfS : ScatterDims.WF ⟨2, ![50000, 1]⟩ ⟨2, ![600000, 1]⟩ ⟨2, ![600000, 1]⟩ [1] [0] [0] 1)
    (Z : (⟨2, ![50000, 1]⟩ : Shape).Idx → EReal) (hZ : ∀ i, Z i = zero')
    (U : (⟨2, ![600000, 1]⟩ : Shape).Idx → EReal) (hU : ∀ i, U i = one') (I : IVec ⟨2, ![600000, 1]⟩ 32) (n : Fin 50000) :
    ∃ r : ℝ, r ≠ 0 ∧ max (Host.scatterAdd (F := Ideal) (φ := .f32) (rowScatterDims 50000 600000 1 wfS) Z I U (ix2 n (0 : Fin 1))) one'
      = (r : EReal) := by
  rw [scatterAdd_rows_apply, hZ, zero'_eq, one'_eq]
  simp only [hU, one'_eq]
  have e : ∀ e : Fin 600000, (if (I (ix2 e (0 : Fin 1))).toInt = (n.val : Int) then (1 : EReal) else 0)
      = (((if (I (ix2 e (0 : Fin 1))).toInt = (n.val : Int) then 1 else 0 : ℝ)) : EReal) := fun e => by
    split_ifs <;> simp
  simp only [e, RealCoe.coe_sum, zero_add]
  refine ⟨max (∑ e : Fin 600000, if (I (ix2 e (0 : Fin 1))).toInt = (n.val : Int) then (1 : ℝ) else 0) 1, ?_, ?_⟩
  · exact ne_of_gt (lt_of_lt_of_le one_pos (le_max_right _ _))
  · rw [← RealCoe.coe_max, EReal.coe_one]

/-- A rank-2 index with given coordinates. -/
theorem ix2_eq {n0 n1 : Nat} (f : (⟨2, ![n0, n1]⟩ : Shape).Idx) (a : Fin n0) (b : Fin n1)
    (h0 : (f 0).val = a.val) (h1 : (f 1).val = b.val) : f = ix2 a b :=
  funext fun d => match d with | ⟨0, _⟩ => Fin.ext h0 | ⟨1, _⟩ => Fin.ext h1

/-- A rank-1 index with a given coordinate. -/
theorem ix1_eq {n : Nat} (f : (⟨1, ![n]⟩ : Shape).Idx) (a : Fin n) (h : (f 0).val = a.val) : f = ix1 a :=
  funext fun d => match d with | ⟨0, _⟩ => Fin.ext h

end Sage

end
-- ==== Proof.KRun.lean ====
/-
  The kernel program's result as a function of its arguments.

  The program runs a stretch of host operations (the edge lists cut out of the index argument, the degrees, the first
  aggregation, the transposed weights), the first kernel, a second stretch (the second aggregation, of the first kernel's
  second result), and the second kernel. Reading each buffer the kernels are launched on back to the arguments, and each
  kernel's result arrays by the tile formula at every row, the result array is `Sage.GK` of the arguments: the two-layer
  network written the first way.
-/
import proofs.«150183_j2972117368898_2_alg».proof.Proof.KRunA
import proofs.«150183_j2972117368898_2_alg».proof.Proof.KVal1
import proofs.«150183_j2972117368898_2_alg».proof.Proof.AggRead
import Idealize.ShloMosaic.Lib.StableHlo.Run
import Idealize.ShloMosaic.Lib.ValueLayout

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo Idealize.ShloMosaic.RowOps
open Idealize.ShloMosaic.Pipeline (Dat)

/-! ## The edge lists and the degrees, from the index argument -/

/-- The destination words, one per edge, as a column. -/
def dstCol (x1 : IVec S2x600000 32) : IVec S600000x1 32 :=
  broadcastInDim S600000x1 ![0] bcast_S600000_S600000x1_0
    (shapeCast S600000 (extractStridedSlice S1x600000 ![1, 0] x1 slices_S2x600000_S1x600000_1_0) shapeCasts_S1x600000_S600000)

/-- The source words, one per edge. -/
def srcWords (x1 : IVec S2x600000 32) : IVec S600000 32 :=
  shapeCast S600000 (extractStridedSlice S1x600000 ![0, 0] x1 slices_S2x600000_S1x600000_0_0) shapeCasts_S1x600000_S600000

/-- The source words with a negative one wrapped by the number of nodes, as a column. -/
def srcCol (x1 : IVec S2x600000 32) : IVec S600000x1 32 :=
  broadcastInDim S600000x1 ![0] bcast_S600000_S600000x1_0
    (select (cmpi .slt (srcWords x1) (broadcastInDim S600000 ![] bcast_S_S600000 (constantI S_ 32 0#32)))
      (addi (srcWords x1) (broadcastInDim S600000 ![] bcast_S_S600000 (constantI S_ 32 50000#32))) (srcWords x1))

/-- The number of edges ending in each node, clamped below at one. -/
def degCol (x1 : IVec S2x600000 32) : FVec Ideal S50000x1 .f32 :=
  maximumf
    (Host.scatterAdd (F := Ideal) scatter_S50000x1_S600000x1_S600000x1_1_0_0_1
      (broadcastInDim S50000x1 ![] bcast_S_S50000x1 (constant S_ .f32 0x00000000#32)) (dstCol x1)
      (broadcastInDim S600000x1 ![] bcast_S_S600000x1 (constant S_ .f32 0x3F800000#32)))
    (broadcastInDim S50000x1 ![] bcast_S_S50000x1 (constant S_ .f32 0x3F800000#32))

variable (m : (ℓ : Loc nD τ sig) → Buf (Elt Ideal) ℓ) (ρ : Dev nD → PrngReg)

/-! ## The buffers the first kernel is launched on -/

set_option maxHeartbeats 4000000 in
theorem e1_v21 (c : Dev nD) : (V1 m ρ c main_v21 : FVec Ideal S50000x128 .f32)
    = Host.scatterAdd (F := Ideal) scatter_S50000x128_S600000x1_S600000x128_1_0_0_1
        (broadcastInDim S50000x128 ![] bcast_S_S50000x128 (constant S_ .f32 0x00000000#32))
        (dstCol (m ((c : Thread nD τ).loc main_arg1)))
        (Host.gather gather_S50000x128_S600000x1_S600000x128_1_0_n_n_0_1_1128 (m ((c : Thread nD τ).loc main_arg0))
          (srcCol (m ((c : Thread nD τ).loc main_arg1)))) := by
  show StableHlo.after hostOps0 (W0 m ρ c) (Proc.devRef .tc main_v21) = _
  after_results_simp <;> rfl

set_option maxHeartbeats 4000000 in
theorem e1_v11 (c : Dev nD) : (V1 m ρ c main_v11 : FVec Ideal S50000x1 .f32)
    = Host.divf (F := Ideal) (broadcastInDim S50000x1 ![] bcast_S_S50000x1 (constant S_ .f32 0x3F800000#32))
        (degCol (m ((c : Thread nD τ).loc main_arg1))) := by
  show StableHlo.after hostOps0 (W0 m ρ c) (Proc.devRef .tc main_v11) = _
  after_results_simp <;> rfl

set_option maxHeartbeats 4000000 in
theorem e1_arg0 (c : Dev nD) : V1 m ρ c main_arg0 = m ((c : Thread nD τ).loc main_arg0) := by
  show StableHlo.after hostOps0 (W0 m ρ c) (Proc.devRef .tc main_arg0) = _
  after_results_simp <;> rfl

set_option maxHeartbeats 4000000 in
theorem e1_v22 (c : Dev nD) : (V1 m ρ c main_v22 : FVec Ideal S128x128 .f32)
    = transpose S128x128 [1, 0] (m ((c : Thread nD τ).loc main_arg2)) transposes_S128x128_S128x128_1_0 := by
  show StableHlo.after hostOps0 (W0 m ρ c) (Proc.devRef .tc main_v22) = _
  after_results_simp <;> rfl

set_option maxHeartbeats 4000000 in
theorem e1_v23 (c : Dev nD) : (V1 m ρ c main_v23 : FVec Ideal S128x128 .f32)
    = transpose S128x128 [1, 0] (m ((c : Thread nD τ).loc main_arg4)) transposes_S128x128_S128x128_1_0 := by
  show StableHlo.after hostOps0 (W0 m ρ c) (Proc.devRef .tc main_v23) = _
  after_results_simp <;> rfl

set_option maxHeartbeats 4000000 in
theorem e1_v24 (c : Dev nD) : (V1 m ρ c main_v24 : FVec Ideal S128x64 .f32)
    = transpose S128x64 [1, 0] (m ((c : Thread nD τ).loc main_arg5)) transposes_S64x128_S128x64_1_0 := by
  show StableHlo.after hostOps0 (W0 m ρ c) (Proc.devRef .tc main_v24) = _
  after_results_simp <;> rfl

set_option maxHeartbeats 4000000 in
theorem e1_v25 (c : Dev nD) : (V1 m ρ c main_v25 : FVec Ideal S1x128 .f32)
    = shapeCast S1x128 (m ((c : Thread nD τ).loc main_arg3)) shapeCasts_S128_S1x128 := by
  show StableHlo.after hostOps0 (W0 m ρ c) (Proc.devRef .tc main_v25) = _
  after_results_simp <;> rfl

/-! ## The buffers the second kernel is launched on -/

set_option maxHeartbeats 4000000 in
theorem w2_v3 (c : Dev nD) : (W2 m ρ c (Proc.devRef .tc main_v3) : IVec S600000 32)
    = shapeCast S600000 (extractStridedSlice S1x600000 ![1, 0] (m ((c : Thread nD τ).loc main_arg1)) slices_S2x600000_S1x600000_1_0)
        shapeCasts_S1x600000_S600000 := by
  rw [W2_of_ne m ρ c main_v3 (by decide)]
  show StableHlo.after hostOps0 (W0 m ρ c) (Proc.devRef .tc main_v3) = _
  after_results_simp <;> rfl

set_option maxHeartbeats 4000000 in
theorem w2_v1 (c : Dev nD) : (W2 m ρ c (Proc.devRef .tc main_v1) : IVec S600000 32)
    = srcWords (m ((c : Thread nD τ).loc main_arg1)) := by
  rw [W2_of_ne m ρ c main_v1 (by decide)]
  show StableHlo.after hostOps0 (W0 m ρ c) (Proc.devRef .tc main_v1) = _
  after_results_simp <;> rfl

set_option maxHeartbeats 4000000 in
theorem w2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

set_option maxHeartbeats 4000000 in
theorem w2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

theorem w2_v26_0 (c : Dev nD) : W2 m ρ c (Proc.devRef .tc main_v26_0) = H0 (V1 m ρ) c :=
  (W2_arr m ρ c 7).trans (final7 (V1 m ρ) c)

theorem w2_v26_1 (c : Dev nD) : W2 m ρ c (Proc.devRef .tc main_v26_1) = HW0 (V1 m ρ) c :=
  (W2_arr m ρ c 8).trans (final8 (V1 m ρ) c)

theorem w2_v11 (c : Dev nD) : W2 m ρ c (Proc.devRef .tc main_v11) = V1 m ρ c main_v11 :=
  (W2_arr m ρ c 2).trans (((dat0 (V1 m ρ) c).arrAt_in 2 rfl _).trans (A_eq0 (V1 m ρ) c 2))

set_option maxHeartbeats 4000000 in
theorem e3_v36 (c : Dev nD) : (V3 m ρ c main_v36 : FVec Ideal S50000x64 .f32)
    = Host.scatterAdd (F := Ideal) scatter_S50000x64_S600000x1_S600000x64_1_0_0_1
        (broadcastInDim S50000x64 ![] bcast_S_S50000x64 (constant S_ .f32 0x00000000#32))
        (dstCol (m ((c : Thread nD τ).loc main_arg1)))
        (Host.gather gather_S50000x64_S600000x1_S600000x64_1_0_n_n_0_1_164 (HW0 (V1 m ρ) c)
          (srcCol (m ((c : Thread nD τ).loc main_arg1)))) := by
  show StableHlo.after hostOps1 (W2 m ρ c) (Proc.devRef .tc main_v36) = _
  after_results_simp
  rw [w2_v3, w2_v1, w2_v26_1]
  rfl

set_option maxHeartbeats 4000000 in
theorem e3_v26_0 (c : Dev nD) : (V3 m ρ c main_v26_0 : FVec Ideal S50000x128 .f32) = H0 (V1 m ρ) c := by
  show StableHlo.after hostOps1 (W2 m ρ c) (Proc.devRef .tc main_v26_0) = _
  after_results_simp
  exact w2_v26_0 m ρ c

set_option maxHeartbeats 4000000 in
theorem e3_v11 (c : Dev nD) : (V3 m ρ c main_v11 : FVec Ideal S50000x1 .f32) = V1 m ρ c main_v11 := by
  show StableHlo.after hostOps1 (W2 m ρ c) (Proc.devRef .tc main_v11) = _
  after_results_simp
  exact w2_v11 m ρ c

set_option maxHeartbeats 4000000 in
theorem e3_v37 (c : Dev nD) : (V3 m ρ c main_v37 : FVec Ideal S128x64 .f32)
    = transpose S128x64 [1, 0] (m ((c : Thread nD τ).loc main_arg7)) transposes_S64x128_S128x64_1_0 := by
  show StableHlo.after hostOps1 (W2 m ρ c) (Proc.devRef .tc main_v37) = _
  after_results_simp
  rw [w2_arg7]

set_option maxHeartbeats 4000000 in
theorem e3_v38 (c : Dev nD) : (V3 m ρ c main_v38 : FVec Ideal S1x64 .f32)
    = shapeCast S1x64 (m ((c : Thread nD τ).loc main_arg6)) shapeCasts_S64_S1x64 := by
  show StableHlo.after hostOps1 (W2 m ρ c) (Proc.devRef .tc main_v38) = _
  after_results_simp
  rw [w2_arg6]
  rfl

end Cert.KernelIdeal.KVal

end
-- ==== Proof.LayerEq.lean ====
/-
  The tile formulas from their inputs' entries: when every entry a row's result reads is known, the formula at that row
  is the same arithmetic on the known entries.
-/
import proofs.«150183_j2972117368898_2_alg».proof.Proof.Layer

noncomputable section

open scoped BigOperators

namespace Sage

open Idealize.ShloMosaic Idealize.ShloMosaic.ValueIdx

variable {R : Nat}

theorem tileH_eq (M X : (⟨2, ![R, 128]⟩ : Shape).Idx → EReal) (INV : (⟨2, ![R, 1]⟩ : Shape).Idx → EReal)
    (WL : (⟨2, ![128, 128]⟩ : Shape).Idx → EReal) (B : (⟨2, ![1, 128]⟩ : Shape).Idx → EReal)
    (WR : (⟨2, ![128, 128]⟩ : Shape).Idx → EReal) (n : Fin R) (k : Fin 128)
    {a x wl wr : Fin 128 → EReal} {s b : EReal}
    (hM : ∀ j, M (ix2 n j) = a j) (hX : ∀ j, X (ix2 n j) = x j) (hI : INV (ix2 n (0 : Fin 1)) = s)
    (hWL : ∀ j, WL (ix2 j k) = wl j) (hB : B (ix2 (0 : Fin 1) k) = b) (hWR : ∀ j, WR (ix2 j k) = wr j) :
    tileH M X INV WL B WR n k = max ((∑ j : Fin 128, (a j * s) * wl j) + (∑ j : Fin 128, x j * wr j) + b) zero' := by
  unfold tileH
  simp only [hM, hX, hI, hWL, hB, hWR]

theorem tileHW_eq (M X : (⟨2, ![R, 128]⟩ : Shape).Idx → EReal) (INV : (⟨2, ![R, 1]⟩ : Shape).Idx → EReal)
    (WL : (⟨2, ![128, 128]⟩ : Shape).Idx → EReal) (B : (⟨2, ![1, 128]⟩ : Shape).Idx → EReal)
    (WR : (⟨2, ![128, 128]⟩ : Shape).Idx → EReal) (W2 : (⟨2, ![128, 64]⟩ : Shape).Idx → EReal) (n : Fin R) (c : Fin 64)
    {h w : Fin 128 → EReal}
    (hH : ∀ k, tileH M X INV WL B WR n k = h k) (hW : ∀ k, W2 (ix2 k c) = w k) :
    tileHW M X INV WL B WR W2 n c = ∑ k : Fin 128, h k * w k := by
  unfold tileHW
  simp only [hH, hW]

theorem tileOut_eq (M2 : (⟨2, ![R, 64]⟩ : Shape).Idx → EReal) (H : (⟨2, ![R, 128]⟩ : Shape).Idx → EReal)
    (INV : (⟨2, ![R, 1]⟩ : Shape).Idx → EReal) (WR2 : (⟨2, ![128, 64]⟩ : Shape).Idx → EReal)
    (B2 : (⟨2, ![1, 64]⟩ : Shape).Idx → EReal) (n : Fin R) (c : Fin 64)
    {h w : Fin 128 → EReal} {a s b : EReal}
    (hM : M2 (ix2 n c) = a) (hH : ∀ k, H (ix2 n k) = h k) (hI : INV (ix2 n (0 : Fin 1)) = s)
    (hW : ∀ k, WR2 (ix2 k c) = w k) (hB : B2 (ix2 (0 : Fin 1) c) = b) :
    tileOut M2 H INV WR2 B2 n c = (a * s + ∑ k : Fin 128, h k * w k) + b := by
  unfold tileOut
  simp only [hM, hH, hI, hW, hB]

end Sage

end
-- ==== Proof.KValue.lean ====
/-
  The kernel program's result is the network written the first way.

  With the buffers each kernel is launched on read back to the arguments (`KRun.lean`), the first kernel's hidden state
  at node `n` is `Sage.hK`, its second result `Sage.hW`; the second stretch aggregates that second result over the edges;
  and the second kernel's result at `(n, c)` is `Sage.outK`. So the program ends with its result array at `Sage.GK` of the
  arguments, and the arguments unchanged.
-/
import proofs.«150183_j2972117368898_2_alg».proof.Proof.KRun
import proofs.«150183_j2972117368898_2_alg».proof.Proof.LayerEq

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg)

/-- The arrays at coordinates. -/
theorem H0_ix2 (V : (c : Dev nD) → (b : Ref sig .tc) → Buf (Elt Ideal) ((c : Thread nD τ).loc b)) (c : Dev nD) (n : Fin 50000) (k : Fin 128) :
    H0 V c (ix2 n k) = Sage.tileH (R := 50000) (V c main_v21) (V c main_arg0) (V c main_v11) (V c main_v22) (V c main_v25) (V c main_v23) n k := rfl
theorem HW0_ix2 (V : (c : Dev nD) → (b : Ref sig .tc) → Buf (Elt Ideal) ((c : Thread nD τ).loc b)) (c : Dev nD) (n : Fin 50000) (q : Fin 64) :
    HW0 V c (ix2 n q) = Sage.tileHW (R := 50000) (V c main_v21) (V c main_arg0) (V c main_v11) (V c main_v22) (V c main_v25) (V c main_v23) (V c main_v24) n q := rfl
theorem OUT1_ix2 (V : (c : Dev nD) → (b : Ref sig .tc) → Buf (Elt Ideal) ((c : Thread nD τ).loc b)) (c : Dev nD) (n : Fin 50000) (q : Fin 64) :
    OUT1 V c (ix2 n q) = Sage.tileOut (R := 50000) (V c main_v36) (V c main_v26_0) (V c main_v11) (V c main_v37) (V c main_v38) n q := rfl

/-! ## The first kernel's operands at an index -/

theorem r_v21 (c : Dev nD) (n : Fin 50000) (j : Fin 128) :
    (V1 m ρ c main_v21 : FVec Ideal S50000x128 .f32) (ix2 n j)
      = Sage.agg (dstCol (m ((c : Thread nD τ).loc main_arg1))) (srcCol (m ((c : Thread nD τ).loc main_arg1)))
          (fun r => m ((c : Thread nD τ).loc main_arg0) (ix2 r j)) n := by
  rw [e1_v21,
    show scatter_S50000x128_S600000x1_S600000x128_1_0_0_1 = rowScatterDims 50000 600000 128 scatter_S50000x128_S600000x1_S600000x128_1_0_0_1_wf from rfl,
    show gather_S50000x128_S600000x1_S600000x128_1_0_n_n_0_1_1128 = rowGatherDims 50000 600000 128 gather_S50000x128_S600000x1_S600000x128_1_0_n_n_0_1_1128_wf from rfl]
  exact Sage.agg_read _ _ _ (fun _ => rfl) _ _ _ n j

theorem r_v11 (c : Dev nD) (n : Fin 50000) :
    (V1 m ρ c main_v11 : FVec Ideal S50000x1 .f32) (ix2 n (0 : Fin 1)) = Sage.inv (degCol (m ((c : Thread nD τ).loc main_arg1))) n := by
  have h1 : ∀ (A B : FVec Ideal S50000x1 .f32) (i : S50000x1.Idx), Host.divf A B i = Ideal.div (A i) (B i) := fun _ _ _ => rfl
  have h2 : (broadcastInDim S50000x1 ![] bcast_S_S50000x1 (constant (F := Ideal) S_ .f32 0x3F800000#32)) (ix2 n (0 : Fin 1))
      = Ideal.ofBits .f32 0x3F800000#32 :=
    (broadcastInDim_apply _ _ _ _ ix0 (fun a => a.elim0)).trans (constant_apply _ _)
  rw [e1_v11, h1, h2]
  unfold Sage.inv Sage.one'
  rfl

theorem r_v22 (c : Dev nD) (j k : Fin 128) :
    (V1 m ρ c main_v22 : FVec Ideal S128x128 .f32) (ix2 j k) = m ((c : Thread nD τ).loc main_arg2) (ix2 k j) := by
  rw [e1_v22]; exact transpose_ix2_apply _ _ j k

theorem r_v23 (c : Dev nD) (j k : Fin 128) :
    (V1 m ρ c main_v23 : FVec Ideal S128x128 .f32) (ix2 j k) = m ((c : Thread nD τ).loc main_arg4) (ix2 k j) := by
  rw [e1_v23]; exact transpose_ix2_apply _ _ j k

theorem r_v24 (c : Dev nD) (k : Fin 128) (q : Fin 64) :
    (V1 m ρ c main_v24 : FVec Ideal S128x64 .f32) (ix2 k q) = m ((c : Thread nD τ).loc main_arg5) (ix2 q k) := by
  rw [e1_v24]; exact transpose_ix2_apply _ _ k q

theorem r_v25 (c : Dev nD) (k : Fin 128) :
    (V1 m ρ c main_v25 : FVec Ideal S1x128 .f32) (ix2 (0 : Fin 1) k) = m ((c : Thread nD τ).loc main_arg3) (ix1 k) := by
  rw [e1_v25]; exact shapeCast_a_1a_apply _ _ 0 k

/-- The first kernel's hidden state. -/
theorem H0_read (c : Dev nD) (n : Fin 50000) (k : Fin 128) :
    H0 (V1 m ρ) c (ix2 n k)
      = Sage.hK (m ((c : Thread nD τ).loc main_arg0)) (dstCol (m ((c : Thread nD τ).loc main_arg1)))
          (srcCol (m ((c : Thread nD τ).loc main_arg1))) (degCol (m ((c : Thread nD τ).loc main_arg1)))
          (m ((c : Thread nD τ).loc main_arg2)) (m ((c : Thread nD τ).loc main_arg3)) (m ((c : Thread nD τ).loc main_arg4)) n k := by
  rw [H0_ix2]
  unfold Sage.hK
  exact Sage.tileH_eq _ _ _ _ _ _ n k (r_v21 m ρ c n) (fun j => congrFun (e1_arg0 m ρ c) _) (r_v11 m ρ c n)
    (fun j => r_v22 m ρ c j k) (r_v25 m ρ c k) (fun j => r_v23 m ρ c j k)

/-- The first kernel's second result. -/
theorem HW0_read (c : Dev nD) (n : Fin 50000) (q : Fin 64) :
    HW0 (V1 m ρ) c (ix2 n q)
      = Sage.hW (m ((c : Thread nD τ).loc main_arg0)) (dstCol (m ((c : Thread nD τ).loc main_arg1)))
          (srcCol (m ((c : Thread nD τ).loc main_arg1))) (degCol (m ((c : Thread nD τ).loc main_arg1)))
          (m ((c : Thread nD τ).loc main_arg2)) (m ((c : Thread nD τ).loc main_arg3)) (m ((c : Thread nD τ).loc main_arg4))
          (m ((c : Thread nD τ).loc main_arg5)) n q := by
  rw [HW0_ix2]
  unfold Sage.hW
  exact Sage.tileHW_eq _ _ _ _ _ _ _ n q (fun k => (H0_ix2 (V1 m ρ) c n k).symm.trans (H0_read m ρ c n k))
    (fun k => r_v24 m ρ c k q)

/-! ## The second kernel's operands at an index -/

theorem r_v36 (c : Dev nD) (n : Fin 50000) (q : Fin 64) :
    (V3 m ρ c main_v36 : FVec Ideal S50000x64 .f32) (ix2 n q)
      = Sage.agg (dstCol (m ((c : Thread nD τ).loc main_arg1))) (srcCol (m ((c : Thread nD τ).loc main_arg1)))
          (fun r => HW0 (V1 m ρ) c (ix2 r q)) n := by
  rw [e3_v36,
    show scatter_S50000x64_S600000x1_S600000x64_1_0_0_1 = rowScatterDims 50000 600000 64 scatter_S50000x64_S600000x1_S600000x64_1_0_0_1_wf from rfl,
    show gather_S50000x64_S600000x1_S600000x64_1_0_n_n_0_1_164 = rowGatherDims 50000 600000 64 gather_S50000x64_S600000x1_S600000x64_1_0_n_n_0_1_164_wf from rfl]
  exact Sage.agg_read _ _ _ (fun _ => rfl) _ _ _ n q

theorem r_v37 (c : Dev nD) (k : Fin 128) (q : Fin 64) :
    (V3 m ρ c main_v37 : FVec Ideal S128x64 .f32) (ix2 k q) = m ((c : Thread nD τ).loc main_arg7) (ix2 q k) := by
  rw [e3_v37]; exact transpose_ix2_apply _ _ k q

theorem r_v38 (c : Dev nD) (q : Fin 64) :
    (V3 m ρ c main_v38 : FVec Ideal S1x64 .f32) (ix2 (0 : Fin 1) q) = m ((c : Thread nD τ).loc main_arg6) (ix1 q) := by
  rw [e3_v38]; exact shapeCast_a_1a_apply _ _ 0 q

/-- The second kernel's result. -/
theorem OUT1_read (c : Dev nD) (n : Fin 50000) (q : Fin 64) :
    OUT1 (V3 m ρ) c (ix2 n q)
      = Sage.outK (m ((c : Thread nD τ).loc main_arg0)) (dstCol (m ((c : Thread nD τ).loc main_arg1)))
          (srcCol (m ((c : Thread nD τ).loc main_arg1))) (degCol (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) n q := by
  rw [OUT1_ix2]
  unfold Sage.outK
  refine Sage.tileOut_eq _ _ _ _ _ n q ?_ (fun k => (congrFun (e3_v26_0 m ρ c) _).trans (H0_read m ρ c n k))
    ((congrFun (e3_v11 m ρ c) _).trans (r_v11 m ρ c n)) (fun k => r_v37 m ρ c k q) (r_v38 m ρ c q)
  refine (r_v36 m ρ c n q).trans ?_
  unfold Sage.agg
  simp only [HW0_read]

/-- THE RESULT ARRAY at the end of the run. -/
theorem value (c : Dev nD) :
    W4 m ρ c (Proc.devRef .tc main_v39)
      = Sage.GK (m ((c : Thread nD τ).loc main_arg0)) (dstCol (m ((c : Thread nD τ).loc main_arg1)))
          (srcCol (m ((c : Thread nD τ).loc main_arg1))) (degCol (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ((final5 (V3 m ρ) c).trans (funext fun i => ?_))
  obtain ⟨n, q, rfl⟩ : ∃ (n : Fin 50000) (q : Fin 64), i = ix2 n q := ⟨i 0, i 1, eq_ix2 i⟩
  exact OUT1_read m ρ c n q

/-- THE RUN: the result at `Sage.GK` of the arguments, the arguments unchanged. -/
theorem run : θ_run defs (onTc (τ := τ) (main (F := Ideal))) ⟨m, fun _ => 0, ρ⟩ (fun r => ∀ c : Dev nD,
      r.2.mem ((c.tc : Thread nD τ).loc main_v39)
        = Sage.GK (m ((c : Thread nD τ).loc main_arg0)) (dstCol (m ((c : Thread nD τ).loc main_arg1)))
          (srcCol (m ((c : Thread nD τ).loc main_arg1))) (degCol (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (run_named m ρ)

end Cert.KernelIdeal.KVal

end
-- ==== Proof.RefValue.lean ====
/-
  The reference program's result as a function of its arguments: stage by stage (each operation read at an index), it
  is `Sage.GR` — the two-layer network written the second way — over the same edge lists and degrees the kernel program
  cuts out of the index argument.
-/
import proofs.«150183_j2972117368898_2_alg».proof.Proof.Gen.ReferenceIdeal.Read
import proofs.«150183_j2972117368898_2_alg».proof.Proof.AggRead

set_option maxRecDepth 16384

noncomputable section

open scoped BigOperators

namespace Cert.ReferenceIdeal.RefVal

open Cert.ReferenceIdeal Cert.ReferenceIdeal.Gen Cert.ReferenceIdeal.Read Idealize.ShloMosaic Idealize.ShloMosaic.ValueIdx
open Idealize.ShloMosaic.RowOps

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-- The destination column, the source column and the clamped degrees, as the reference computes them. -/
abbrev IR : IVec S600000x1 32 := val_main_v12 (F := Ideal) x1
abbrev JR : IVec S600000x1 32 := val_main_v9 (F := Ideal) x1
abbrev DR : FVec Ideal S50000x1 .f32 := val_main_v19 (F := Ideal) x1

/-- The first aggregation. -/
theorem v13_apply (n : Fin 50000) (j : Fin 128) :
    val_main_v13 (F := Ideal) x0 x1 (ix2 n j) = Sage.agg (IR x1) (JR x1) (fun r => x0 (ix2 r j)) n := by
  unfold val_main_v13 val_main_v10
  rw [show scatter_S50000x128_S600000x1_S600000x128_1_0_0_1 = rowScatterDims 50000 600000 128 scatter_S50000x128_S600000x1_S600000x128_1_0_0_1_wf from rfl,
    show gather_S50000x128_S600000x1_S600000x128_1_0_n_n_0_1_1128 = rowGatherDims 50000 600000 128 gather_S50000x128_S600000x1_S600000x128_1_0_n_n_0_1_1128_wf from rfl]
  exact Sage.agg_read _ _ _ (fun _ => rfl) x0 _ _ n j

/-- The mean over the neighbours. -/
theorem v21_apply (n : Fin 50000) (j : Fin 128) :
    val_main_v21 (F := Ideal) x0 x1 (ix2 n j)
      = Ideal.div (Sage.agg (IR x1) (JR x1) (fun r => x0 (ix2 r j)) n) (DR x1 (ix2 n (0 : Fin 1))) := by
  rw [val_main_v21_apply, val_main_v20_apply, v13_apply,
    show idx_main_v20 (ix2 n j) = ix2 n (0 : Fin 1) from Sage.ix2_eq _ _ _ rfl rfl]
  rfl

/-- The hidden state. -/
theorem v30_apply (n : Fin 50000) (k : Fin 128) :
    val_main_v30 (F := Ideal) x0 x1 x2 x3 x4 (ix2 n k) = Sage.hR x0 (IR x1) (JR x1) (DR x1) x2 x3 x4 n k := by
  rw [val_main_v30_apply, val_main_v29_apply, val_main_v26_apply, val_main_v23_apply, val_main_v28_apply,
    val_main_v25_apply, val_main_v24_apply, val_main_call0_v0_apply, val_main_call0_cst_apply]
  have e1 : ∀ j : Fin 128, lidx_main_v23 (ix2 n k) j = ix2 n j := fun j => Sage.ix2_eq _ _ _ rfl rfl
  have e2 : ∀ j : Fin 128, ridx_main_v23 (ix2 n k) j = ix2 j k := fun j => Sage.ix2_eq _ _ _ rfl rfl
  have e3 : ∀ j : Fin 128, idx_main_v22 (ix2 j k) = ix2 k j := fun j => Sage.ix2_eq _ _ _ rfl rfl
  have e4 : ∀ j : Fin 128, lidx_main_v28 (ix2 n k) j = ix2 n j := fun j => Sage.ix2_eq _ _ _ rfl rfl
  have e5 : ∀ j : Fin 128, ridx_main_v28 (ix2 n k) j = ix2 j k := fun j => Sage.ix2_eq _ _ _ rfl rfl
  have e6 : ∀ j : Fin 128, idx_main_v27 (ix2 j k) = ix2 k j := fun j => Sage.ix2_eq _ _ _ rfl rfl
  have e7 : idx_main_v24 (idx_main_v25 (ix2 n k)) = ix1 k := Sage.ix1_eq _ _ rfl
  simp only [e1, e2, e4, e5, e7, v21_apply, val_main_v22_apply, val_main_v27_apply, e3, e6]
  rfl

theorem v39_eq : val_main_v39 (F := Ideal) x1 = IR x1 := rfl
theorem v36_eq : val_main_v36 (F := Ideal) x1 = JR x1 := rfl
theorem v46_eq : val_main_v46 (F := Ideal) x1 = DR x1 := rfl

/-- The second aggregation. -/
theorem v40_apply (n : Fin 50000) (k : Fin 128) :
    val_main_v40 (F := Ideal) x0 x1 x2 x3 x4 (ix2 n k)
      = Sage.agg (IR x1) (JR x1) (fun r => Sage.hR x0 (IR x1) (JR x1) (DR x1) x2 x3 x4 r k) n := by
  unfold val_main_v40 val_main_v37
  rw [v39_eq, v36_eq,
    show scatter_S50000x128_S600000x1_S600000x128_1_0_0_1 = rowScatterDims 50000 600000 128 scatter_S50000x128_S600000x1_S600000x128_1_0_0_1_wf from rfl,
    show gather_S50000x128_S600000x1_S600000x128_1_0_n_n_0_1_1128 = rowGatherDims 50000 600000 128 gather_S50000x128_S600000x1_S600000x128_1_0_n_n_0_1_1128_wf from rfl]
  refine (Sage.agg_read _ _ _ (fun _ => rfl) (val_main_v30 (F := Ideal) x0 x1 x2 x3 x4) _ _ n k).trans ?_
  simp only [v30_apply]

/-- The mean of the hidden state over the neighbours. -/
theorem v48_apply (n : Fin 50000) (k : Fin 128) :
    val_main_v48 (F := Ideal) x0 x1 x2 x3 x4 (ix2 n k)
      = Ideal.div (Sage.agg (IR x1) (JR x1) (fun r => Sage.hR x0 (IR x1) (JR x1) (DR x1) x2 x3 x4 r k) n) (DR x1 (ix2 n (0 : Fin 1))) := by
  rw [val_main_v48_apply, val_main_v47_apply, v40_apply, v46_eq,
    show idx_main_v47 (ix2 n k) = ix2 n (0 : Fin 1) from Sage.ix2_eq _ _ _ rfl rfl]
  rfl

/-- THE RESULT: the network written the second way. -/
theorem v56_eq : val_main_v56 (F := Ideal) x0 x1 x2 x3 x4 x5 x6 x7
    = Sage.GR x0 (IR x1) (JR x1) (DR x1) x2 x3 x4 x5 x6 x7 := by
  funext i
  obtain ⟨n, c, rfl⟩ : ∃ (n : Fin 50000) (c : Fin 64), i = ix2 n c := ⟨i 0, i 1, eq_ix2 i⟩
  rw [val_main_v56_apply, val_main_v53_apply, val_main_v50_apply, val_main_v55_apply, val_main_v52_apply, val_main_v51_apply]
  have e1 : ∀ k : Fin 128, lidx_main_v50 (ix2 n c) k = ix2 n k := fun k => Sage.ix2_eq _ _ _ rfl rfl
  have e2 : ∀ k : Fin 128, ridx_main_v50 (ix2 n c) k = ix2 k c := fun k => Sage.ix2_eq _ _ _ rfl rfl
  have e3 : ∀ k : Fin 128, idx_main_v49 (ix2 k c) = ix2 c k := fun k => Sage.ix2_eq _ _ _ rfl rfl
  have e4 : ∀ k : Fin 128, lidx_main_v55 (ix2 n c) k = ix2 n k := fun k => Sage.ix2_eq _ _ _ rfl rfl
  have e5 : ∀ k : Fin 128, ridx_main_v55 (ix2 n c) k = ix2 k c := fun k => Sage.ix2_eq _ _ _ rfl rfl
  have e6 : ∀ k : Fin 128, idx_main_v54 (ix2 k c) = ix2 c k := fun k => Sage.ix2_eq _ _ _ rfl rfl
  have e7 : idx_main_v51 (idx_main_v52 (ix2 n c)) = ix1 c := Sage.ix1_eq _ _ rfl
  simp only [e1, e2, e4, e5, e7, v48_apply, v30_apply, val_main_v49_apply, val_main_v54_apply, e3, e6]
  rfl

end Cert.ReferenceIdeal.RefVal

end
-- ==== Proof.Finite.lean ====
/-
  The precondition read back: when `finite_inputs` is all ones, every entry of every float argument is a real number.
  The predicate is a conjunction of seven `all(|x| < +∞)` tests; an extended real whose absolute value `max x (-x)` is
  below `+∞` is neither infinity.
-/
import proofs.«150183_j2972117368898_2_alg».proof.Pre_finite_inputs
import Idealize.ShloMosaic.Lib.ReduceAll
import Idealize.ShloMosaic.Lib.ValueIdx
import proofs.«150183_j2972117368898_2_alg».proof.Proof.Spec

noncomputable section

namespace Cert.Pre_finite_inputs.Reals

open Cert.Pre_finite_inputs Idealize.ShloMosaic

instance : Subsingleton S_.Idx := ⟨fun a b => funext fun d => d.elim0⟩

/-- An extended real with `|y| < +∞` is a real number. -/
theorem real_of_abs_lt (y : EReal) (h : Ideal.cmp .olt (max y (-y)) (Ideal.ofBits .f32 0x7F800000#32) = 1#1) : Sage.IsReal y := by
  have hinf : Ideal.ofBits .f32 0x7F800000#32 = (⊤ : EReal) := by simp [Ideal.ofBits, Ideal.ieee]
  rw [hinf] at h
  have hlt : max y (-y) < ⊤ := by
    by_contra hn
    have h0 : Ideal.cmp .olt (max y (-y)) ⊤ = 0#1 := by
      unfold Ideal.cmp
      rw [decide_eq_false hn]
      rfl
    rw [h0] at h
    exact absurd h (by decide)
  induction y using EReal.rec with
  | bot => simp at hlt
  | coe r => exact ⟨r, rfl⟩
  | top => simp at hlt

variable [Facts]

/-- Every float argument is real-valued. -/
theorem reals_of_pre (x0 : FVec Ideal S50000x128 .f32) (x1 : IVec S2x600000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (h : fn (F := Ideal) x0 x1 x2 x3 x4 x5 x6 x7 = fun _ => 1#1) :
    (∀ i, Sage.IsReal (x0 i)) ∧ (∀ i, Sage.IsReal (x2 i)) ∧ (∀ i, Sage.IsReal (x3 i)) ∧ (∀ i, Sage.IsReal (x4 i))
      ∧ (∀ i, Sage.IsReal (x5 i)) ∧ (∀ i, Sage.IsReal (x6 i)) ∧ (∀ i, Sage.IsReal (x7 i)) := by
  have h0 := congrFun h ValueIdx.ix0
  dsimp only [fn, fn_part1] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨fun i => real_of_abs_lt _ (Host.reduce_andi_all _ _ _ _ _ h0 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i),
    fun i => real_of_abs_lt _ (Host.reduce_andi_all _ _ _ _ _ h6 i),
    fun i => real_of_abs_lt _ (Host.reduce_andi_all _ _ _ _ _ h7 i)⟩

end Cert.Pre_finite_inputs.Reals

end
-- ==== Proof.Degree.lean ====
/-
  The clamped degree of every node — the larger of the number of edges ending in it and one — is a nonzero real.
-/
import proofs.«150183_j2972117368898_2_alg».proof.Proof.KRun

set_option maxRecDepth 16384

noncomputable section

namespace Cert.KernelIdeal.KVal

open Cert.KernelIdeal Cert.KernelIdeal.Gen Idealize.ShloMosaic Idealize.ShloMosaic.ValueIdx Idealize.ShloMosaic.RowOps

theorem degCol_real (x1 : IVec S2x600000 32) (n : Fin 50000) :
    ∃ r : ℝ, r ≠ 0 ∧ degCol x1 (ix2 n (0 : Fin 1)) = (r : EReal) := by
  have hmax : ∀ (A B : FVec Ideal S50000x1 .f32) (i : S50000x1.Idx), maximumf A B i = max (A i) (B i) := fun _ _ _ => rfl
  have hB : (broadcastInDim S50000x1 ![] bcast_S_S50000x1 (constant (F := Ideal) S_ .f32 0x3F800000#32)) (ix2 n (0 : Fin 1)) = Sage.one' :=
    (broadcastInDim_apply _ _ _ _ ix0 (fun a => a.elim0)).trans (constant_apply _ _)
  have hZ : ∀ i, (broadcastInDim S50000x1 ![] bcast_S_S50000x1 (constant (F := Ideal) S_ .f32 0x00000000#32)) i = Sage.zero' :=
    fun i => (broadcastInDim_apply _ _ _ _ ix0 (fun a => a.elim0)).trans (constant_apply _ _)
  have hU : ∀ i, (broadcastInDim S600000x1 ![] bcast_S_S600000x1 (constant (F := Ideal) S_ .f32 0x3F800000#32)) i = Sage.one' :=
    fun i => (broadcastInDim_apply _ _ _ _ ix0 (fun a => a.elim0)).trans (constant_apply _ _)
  unfold degCol
  rw [hmax, hB,
    show scatter_S50000x1_S600000x1_S600000x1_1_0_0_1
      = rowScatterDims 50000 600000 1 scatter_S50000x1_S600000x1_S600000x1_1_0_0_1_wf from rfl]
  exact Sage.deg_real _ _ hZ _ hU _ n

end Cert.KernelIdeal.KVal

end
-- ==== Proof.lean ====
/-
  A two-layer graph network with mean aggregation over 600000 edges of 50000 nodes, as two TensorCore kernels between
  gather and scatter-add stretches on the host, against its plain reference.

  The kernel program multiplies each neighbour sum by the reciprocal of the clamped degree where the reference divides
  by the clamped degree; it adds the self path before the bias where the reference adds the bias first; and for the
  second layer it aggregates the hidden state ALREADY multiplied by the left weight (64 columns) where the reference
  aggregates the hidden state (128 columns) and multiplies afterwards. At the ideal instance the first two differences
  are a quotient by a nonzero real and the commutativity of addition; the third is linearity of the aggregation, which
  holds because on finite inputs every intermediate is a real number (`Spec.lean`, `Sage.GK_eq_GR`).
  The kernel program's run and result are read in `KRunA.lean` … `KValue.lean` (each kernel's blocks are the tile
  formula at every row, the ten tiles cover the arrays; the host stretches are read back to the arguments), the
  reference's in `RefValue.lean` over the generated run, the precondition in `Finite.lean`, the degrees in `Degree.lean`.
-/
import proofs.«150183_j2972117368898_2_alg».proof.Defs
import proofs.«150183_j2972117368898_2_alg».proof.Proof.Gen.Kernel
import proofs.«150183_j2972117368898_2_alg».proof.Proof.Gen.Kernel.Skeleton
import proofs.«150183_j2972117368898_2_alg».proof.Proof.Gen.Kernel.Launch
import proofs.«150183_j2972117368898_2_alg».proof.Proof.Gen.Kernel.Points
import proofs.«150183_j2972117368898_2_alg».proof.Proof.Gen.Kernel.Frame
import proofs.«150183_j2972117368898_2_alg».proof.Proof.Gen.KernelIdeal
import proofs.«150183_j2972117368898_2_alg».proof.Proof.Gen.KernelIdeal.Skeleton
import proofs.«150183_j2972117368898_2_alg».proof.Proof.Gen.KernelIdeal.Launch
import proofs.«150183_j2972117368898_2_alg».proof.Proof.Gen.KernelIdeal.Points
import proofs.«150183_j2972117368898_2_alg».proof.Proof.Gen.KernelIdeal.Frame
import proofs.«150183_j2972117368898_2_alg».proof.Proof.Gen.ReferenceIdeal
import proofs.«150183_j2972117368898_2_alg».proof.Proof.Gen.Pre_finite_inputs
import proofs.«150183_j2972117368898_2_alg».proof.Proof.Gen.ReferenceIdeal.Run
import proofs.«150183_j2972117368898_2_alg».proof.Proof.Gen.ReferenceIdeal.Read
import proofs.«150183_j2972117368898_2_alg».proof.Proof.KValue
import proofs.«150183_j2972117368898_2_alg».proof.Proof.RefValue
import proofs.«150183_j2972117368898_2_alg».proof.Proof.Finite
import proofs.«150183_j2972117368898_2_alg».proof.Proof.Degree
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The edge lists and the degrees are cut out of the index argument by the same operations in both programs. -/
theorem dstCol_eq (x1 : IVec Cert.KernelIdeal.S2x600000 32) :
    Cert.ReferenceIdeal.RefVal.IR x1 = Cert.KernelIdeal.KVal.dstCol x1 := rfl
theorem srcCol_eq (x1 : IVec Cert.KernelIdeal.S2x600000 32) :
    Cert.ReferenceIdeal.RefVal.JR x1 = Cert.KernelIdeal.KVal.srcCol x1 := rfl
theorem degCol_eq (x1 : IVec Cert.KernelIdeal.S2x600000 32) :
    Cert.ReferenceIdeal.RefVal.DR x1 = Cert.KernelIdeal.KVal.degCol x1 := rfl

/-- The two programs end with one result: the network written the first way is, on finite inputs, the network written
    the second way. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v56_eq, Cert.ReferenceIdeal.RefVal.v56_eq, a0, a1, a2, a3, a4, a5, a6, a7,
    dstCol_eq, srcCol_eq, degCol_eq]
  obtain ⟨h0, h2, h3, h4, h5, -, -⟩ := Cert.Pre_finite_inputs.Reals.reals_of_pre _ _ _ _ _ _ _ _ (hpre c)
  exact (Sage.GK_eq_GR h0 h2 h3 h4 h5 (Cert.KernelIdeal.KVal.degCol_real _)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
